-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S131072x64 : Shape := ⟨2, ![131072, 64]⟩
abbrev S64x256 : Shape := ⟨2, ![64, 256]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S131072x256 .f32) (main_arg1 : FVec F S131072x64 .f32) (main_arg2 : FVec F S131072x64 .f32) (main_arg3 : FVec F S64x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S131072x64 .f32 := Host.absf main_arg2
  let main_cst_2 : FVec F S_ .f32 := constant S_ .f32 0x7F800000#32
  let main_v10 : FVec F S131072x64 .f32 := broadcastInDim S131072x64 ![] bcast_S_S131072x64 main_cst_2
  let main_v11 : IVec S131072x64 1 := cmpf .olt main_v9 main_v10
  let main_c_3 : IVec S_ 1 := constantI S_ 1 1#1
  let main_v12 : IVec S_ 1 := (fun x v => Host.reduce IntOp.andi x v reducesTo_S131072x64_S_d0_1 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S131072x256 : Shape := ⟨2, ![131072, 256]⟩
abbrev S131072x64 : Shape := ⟨2, ![131072, 64]⟩
abbrev S64x256 : Shape := ⟨2, ![64, 256]⟩
abbrev S2x64x256 : Shape := ⟨3, ![2, 64, 256]⟩
abbrev S2x1x64 : Shape := ⟨3, ![2, 1, 64]⟩
abbrev S2x1x1 : Shape := ⟨3, ![2, 1, 1]⟩
abbrev S8192x256 : Shape := ⟨2, ![8192, 256]⟩
abbrev S8192x64 : Shape := ⟨2, ![8192, 64]⟩
abbrev S1x64x256 : Shape := ⟨3, ![1, 64, 256]⟩
abbrev S1x1x64 : Shape := ⟨3, ![1, 1, 64]⟩
abbrev S1x1x1 : Shape := ⟨3, ![1, 1, 1]⟩
abbrev S1x64 : Shape := ⟨2, ![1, 64]⟩
abbrev S1x1 : Shape := ⟨2, ![1, 1]⟩
abbrev S64 : Shape := ⟨1, ![64]⟩
abbrev S8192 : Shape := ⟨1, ![8192]⟩
abbrev S8192x1 : Shape := ⟨2, ![8192, 1]⟩
abbrev S1x8192x1 : Shape := ⟨3, ![1, 8192, 1]⟩
abbrev S1 : Shape := ⟨1, ![1]⟩
abbrev S_ : Shape := ⟨0, ![]⟩
abbrev S64x1 : Shape := ⟨2, ![64, 1]⟩

abbrev nBuf : Space → Nat
  | .hbm => 56
  | .vmem => 16
  | .smem => 0
  | _ => 0

abbrev bufTy : (tb : Table) → Fin (tcTables nBuf tb) → BufTy
  | .hbm, ⟨0, _⟩ => ⟨S131072x256, .f32⟩
  | .hbm, ⟨1, _⟩ => ⟨S131072x64, .f32⟩
  | .hbm, ⟨2, _⟩ => ⟨S131072x64, .f32⟩
  | .hbm, ⟨3, _⟩ => ⟨S64x256, .f32⟩
  | .hbm, ⟨4, _⟩ => ⟨S2x64x256, .f32⟩
  | .hbm, ⟨5, _⟩ => ⟨S2x1x64, .f32⟩
  | .hbm, ⟨6, _⟩ => ⟨S2x64x256, .f32⟩
  | .hbm, ⟨7, _⟩ => ⟨S2x1x64, .f32⟩
  | .hbm, ⟨8, _⟩ => ⟨S2x1x1, .f32⟩
  | .hbm, ⟨9, _⟩ => ⟨S_, .f32⟩
  | .hbm, ⟨10, _⟩ => ⟨S64x256, .f32⟩
  | .hbm, ⟨11, _⟩ => ⟨S_, .f32⟩
  | .hbm, ⟨12, _⟩ => ⟨S1x64, .f32⟩
  | .hbm, ⟨13, _⟩ => ⟨S64, .f32⟩
  | .hbm, ⟨14, _⟩ => ⟨S_, .f32⟩
  | .hbm, ⟨15, _⟩ => ⟨S64x256, .f32⟩
  | .hbm, ⟨16, _⟩ => ⟨S_, .f32⟩
  | .hbm, ⟨17, _⟩ => ⟨S1x64, .f32⟩
  | .hbm, ⟨18, _⟩ => ⟨S64, .f32⟩
  | .hbm, ⟨19, _⟩ => ⟨S_, .f32⟩
  | .hbm, ⟨20, _⟩ => ⟨S1x1, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .i1⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64x1, .f32⟩
  | .hbm, ⟨29, _⟩ => ⟨S64x256, .f32⟩
  | .hbm, ⟨30, _⟩ => ⟨S64x256, .f32⟩
  | .hbm, ⟨31, _⟩ => ⟨S64x1, .i1⟩
  | .hbm, ⟨32, _⟩ => ⟨S_, .f32⟩
  | .hbm, ⟨33, _⟩ => ⟨S64x256, .f32⟩
  | .hbm, ⟨34, _⟩ => ⟨S64x256, .f32⟩
  | .hbm, ⟨35, _⟩ => ⟨S_, .f32⟩
  | .hbm, ⟨36, _⟩ => ⟨S64x256, .f32⟩
  | .hbm, ⟨37, _⟩ => ⟨S64x256, .f32⟩
  | .hbm, ⟨38, _⟩ => ⟨S64x256, .f32⟩
  | .hbm, ⟨39, _⟩ => ⟨S64x256, .i1⟩
  | .hbm, ⟨40, _⟩ => ⟨S64x256, .f32⟩
  | .hbm, ⟨41, _⟩ => ⟨S64x256, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S64x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S8192x256, .f32⟩
  | .local _ .vmem, ⟨1, _⟩ => ⟨S8192x256, .f32⟩
  | .local _ .vmem, ⟨2, _⟩ => ⟨S8192x64, .f32⟩
  | .local _ .vmem, ⟨3, _⟩ => ⟨S8192x64, .f32⟩
  | .local _ .vmem, ⟨4, _⟩ => ⟨S8192x64, .f32⟩
  | .local _ .vmem, ⟨5, _⟩ => ⟨S8192x64, .f32⟩
  | .local _ .vmem, ⟨6, _⟩ => ⟨S1x64x256, .f32⟩
  | .local _ .vmem, ⟨7, _⟩ => ⟨S1x64x256, .f32⟩
  | .local _ .vmem, ⟨8, _⟩ => ⟨S1x1x64, .f32⟩
  | .local _ .vmem, ⟨9, _⟩ => ⟨S1x1x64, .f32⟩
  | .local _ .vmem, ⟨10, _⟩ => ⟨S1x64x256, .f32⟩
  | .local _ .vmem, ⟨11, _⟩ => ⟨S1x64x256, .f32⟩
  | .local _ .vmem, ⟨12, _⟩ => ⟨S1x1x64, .f32⟩
  | .local _ .vmem, ⟨13, _⟩ => ⟨S1x1x64, .f32⟩
  | .local _ .vmem, ⟨14, _⟩ => ⟨S1x1x1, .f32⟩
  | .local _ .vmem, ⟨15, _⟩ => ⟨S1x1x1, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_cst_4 : Ref sig .tc := ⟨.hbm, 22, rfl⟩
abbrev main_v9 : Ref sig .tc := ⟨.hbm, 23, rfl⟩
abbrev main_v10 : Ref sig .tc := ⟨.hbm, 24, rfl⟩
abbrev main_cst_5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_v18 : Ref sig .tc := ⟨.hbm, 34, rfl⟩
abbrev main_cst_7 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_cst_9 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_cst_12 : Ref sig .tc := ⟨.hbm, 54, rfl⟩
abbrev main_v32 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S8192x256_S8192x256_0_0 : ∀ a, (![0, 0] : Fin 2 → Nat) a + S8192x256.size a ≤ S8192x256.size a
  h_S8192x256 : 0 < S8192x256.numel
  inb_S8192x64_S8192x64_0_0 : ∀ a, (![0, 0] : Fin 2 → Nat) a + S8192x64.size a ≤ S8192x64.size a
  h_S8192x64 : 0 < S8192x64.numel
  reduces_S8192x64_S64 : S8192x64.Reduces [0] S64
  shapeCasts_S64_S1x64 : S64.ShapeCasts S1x64
  reduces_S8192x256_S8192 : S8192x256.Reduces [1] S8192
  shapeCasts_S8192_S8192x1 : S8192.ShapeCasts S8192x1
  reduces_S8192x64_S8192 : S8192x64.Reduces [1] S8192
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  reducesTo_S2x64x256_S64x256_d0 : S2x64x256.ReducesTo [0] S64x256
  h_S_ : 0 < S_.numel
  reducesTo_S2x1x64_S1x64_d0 : S2x1x64.ReducesTo [0] S1x64
  shapeCasts_S1x64_S64 : S1x64.ShapeCasts S64
  reducesTo_S2x1x1_S1x1_d0 : S2x1x1.ReducesTo [0] S1x1
  shapeCasts_S1x1_S_ : S1x1.ShapeCasts S_
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S_S64x256 : S_.BroadcastsInDim S64x256 (![] : Fin 0 → Fin S64x256.rank)
  reducesTo_S64x256_S64_d1 : S64x256.ReducesTo [1] S64
  reducesTo_S64_S_d0 : S64.ReducesTo [0] S_
  reducesTo_S64x256_S_d0_1 : S64x256.ReducesTo [0, 1] S_
  dot_S8192x64_S8192x256_S64x256_0_0_1_1_n_n_wf : DotDims.WF S8192x64 S8192x256 S64x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S131072x64.size a
  hwx0_1 : ∀ i : grid0.Coords, EltTy.bits .f32 = 32 ∨ (Rect.block (s := S131072x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S131072x64.size a
  hwx0_2 : ∀ i : grid0.Coords, EltTy.bits .f32 = 32 ∨ (Rect.block (s := S131072x64) S8192x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x256.size a ≤ S2x64x256.size a
  hwx0_3 : ∀ i : grid0.Coords, EltTy.bits .f32 = 32 ∨ (Rect.block (s := S2x64x256) S1x64x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x256.size a ≤ S2x64x256.size a
  hwx0_5 : ∀ i : grid0.Coords, EltTy.bits .f32 = 32 ∨ (Rect.block (s := S2x64x256) S1x64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64.size a ≤ S2x1x64.size a
  hwx0_6 : ∀ i : grid0.Coords, EltTy.bits .f32 = 32 ∨ (Rect.block (s := S2x1x64) S1x1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)

variable [Facts₀]

def dot_S8192x64_S8192x256_S64x256_0_0_1_1_n_n : DotDims S8192x64 S8192x256 S64x256 where
  lhsContracting := [0]
  rhsContracting := [0]
  lhsNonContracting := [1]
  rhsNonContracting := [1]
  lhsBatch := []
  rhsBatch := []
  wf := dot_S8192x64_S8192x256_S64x256_0_0_1_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x64x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x64x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x64 : Shape := ⟨2, ![131072, 64]⟩
abbrev S64x256 : Shape := ⟨2, ![64, 256]⟩
abbrev S_ : Shape := ⟨0, ![]⟩
abbrev S64 : Shape := ⟨1, ![64]⟩
abbrev S64x1 : Shape := ⟨2, ![64, 1]⟩
abbrev S131072 : Shape := ⟨1, ![131072]⟩
abbrev S256x64 : Shape := ⟨2, ![256, 64]⟩
abbrev S131072x1 : Shape := ⟨2, ![131072, 1]⟩
abbrev S1x64 : Shape := ⟨2, ![1, 64]⟩

abbrev nBuf : Space → Nat
  | .hbm => 51
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x64, .f32⟩
  | .hbm, ⟨2, _⟩ => ⟨S131072x64, .f32⟩
  | .hbm, ⟨3, _⟩ => ⟨S64x256, .f32⟩
  | .hbm, ⟨4, _⟩ => ⟨S64x256, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .i1⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64x1, .f32⟩
  | .hbm, ⟨14, _⟩ => ⟨S64x256, .f32⟩
  | .hbm, ⟨15, _⟩ => ⟨S64x256, .f32⟩
  | .hbm, ⟨16, _⟩ => ⟨S64x1, .i1⟩
  | .hbm, ⟨17, _⟩ => ⟨S_, .f32⟩
  | .hbm, ⟨18, _⟩ => ⟨S64x256, .f32⟩
  | .hbm, ⟨19, _⟩ => ⟨S64x256, .f32⟩
  | .hbm, ⟨20, _⟩ => ⟨S_, .f32⟩
  | .hbm, ⟨21, _⟩ => ⟨S64x256, .f32⟩
  | .hbm, ⟨22, _⟩ => ⟨S64x256, .f32⟩
  | .hbm, ⟨23, _⟩ => ⟨S64x256, .f32⟩
  | .hbm, ⟨24, _⟩ => ⟨S64x256, .i1⟩
  | .hbm, ⟨25, _⟩ => ⟨S64x256, .f32⟩
  | .hbm, ⟨26, _⟩ => ⟨S131072x256, .f32⟩
  | .hbm, ⟨27, _⟩ => ⟨S_, .f32⟩
  | .hbm, ⟨28, _⟩ => ⟨S131072, .f32⟩
  | .hbm, ⟨29, _⟩ => ⟨S64x256, .f32⟩
  | .hbm, ⟨30, _⟩ => ⟨S_, .f32⟩
  | .hbm, ⟨31, _⟩ => ⟨S64, .f32⟩
  | .hbm, ⟨32, _⟩ => ⟨S256x64, .f32⟩
  | .hbm, ⟨33, _⟩ => ⟨S131072x64, .f32⟩
  | .hbm, ⟨34, _⟩ => ⟨S131072x1, .f32⟩
  | .hbm, ⟨35, _⟩ => ⟨S1x64, .f32⟩
  | .hbm, ⟨36, _⟩ => ⟨S131072x64, .f32⟩
  | .hbm, ⟨37, _⟩ => ⟨S131072x64, .f32⟩
  | .hbm, ⟨38, _⟩ => ⟨S131072x64, .f32⟩
  | .hbm, ⟨39, _⟩ => ⟨S_, .f32⟩
  | .hbm, ⟨40, _⟩ => ⟨S131072x64, .f32⟩
  | .hbm, ⟨41, _⟩ => ⟨S131072x64, .f32⟩
  | .hbm, ⟨42, _⟩ => ⟨S131072x64, .f32⟩
  | .hbm, ⟨43, _⟩ => ⟨S131072x64, .f32⟩
  | .hbm, ⟨44, _⟩ => ⟨S131072x64, .f32⟩
  | .hbm, ⟨45, _⟩ => ⟨S_, .f32⟩
  | .hbm, ⟨46, _⟩ => ⟨S131072, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  reducesTo_S131072x64_S64_d0 : S131072x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S_S64x256 : S_.BroadcastsInDim S64x256 (![] : Fin 0 → Fin S64x256.rank)
  reducesTo_S131072x256_S131072_d1 : S131072x256.ReducesTo [1] S131072
  reducesTo_S64x256_S64_d1 : S64x256.ReducesTo [1] S64
  transposes_S64x256_S256x64_1_0 : S64x256.Transposes [1, 0] S256x64
  bcast_S131072_S131072x1_0 : S131072.BroadcastsInDim S131072x1 (![0] : Fin 1 → Fin S131072x1.rank)
  bcast_S64_S1x64_1 : S64.BroadcastsInDim S1x64 (![1] : Fin 1 → Fin S1x64.rank)
  bcast_S131072x1_S131072x64_0_1 : S131072x1.BroadcastsInDim S131072x64 (![0, 1] : Fin 2 → Fin S131072x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S131072_d1 : S131072x64.ReducesTo [1] S131072
  reducesTo_S131072_S_d0 : S131072.ReducesTo [0] S_
  dot_S131072x64_S131072x256_S64x256_0_0_1_1_n_n_wf : DotDims.WF S131072x64 S131072x256 S64x256 [0] [0] [1] [1] [] []
  dot_S131072x256_S256x64_S131072x64_1_0_0_1_n_n_wf : DotDims.WF S131072x256 S256x64 S131072x64 [1] [0] [0] [1] [] []

variable [Facts₀]

def dot_S131072x64_S131072x256_S64x256_0_0_1_1_n_n : DotDims S131072x64 S131072x256 S64x256 where
  lhsContracting := [0]
  rhsContracting := [0]
  lhsNonContracting := [1]
  rhsNonContracting := [1]
  lhsBatch := []
  rhsBatch := []
  wf := dot_S131072x64_S131072x256_S64x256_0_0_1_1_n_n_wf
def dot_S131072x256_S256x64_S131072x64_1_0_0_1_n_n : DotDims S131072x256 S256x64 S131072x64 where
  lhsContracting := [1]
  rhsContracting := [0]
  lhsNonContracting := [0]
  rhsNonContracting := [1]
  lhsBatch := []
  rhsBatch := []
  wf := dot_S131072x256_S256x64_S131072x64_1_0_0_1_n_n_wf

class Facts : Prop extends Facts₀ where

variable [Facts]
-- ==== Proof.CaseValues.lean ====
/-
  What one grid step leaves in each of the five accumulator blocks, as a value.

  A step either continues an accumulation (case B: every accumulator block is read, updated by the step's three
  input tiles, and stored whole) or starts one (case A, the first step of a core's eight: every block is first
  stored as zeros, then read back and updated the same way).  In both cases each block ends holding ONE whole-block
  store, whose value is the step's update of what the block held: the previous contents in case B, the zero block
  in case A.  The updates are the kernel body's arithmetic, named by the generated skeleton.
-/
import proofs.«178432_j6717328851141_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.CaseValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Continuing an accumulation, the label sums' block holding `xo3` ends at the step's update of it by the tile of points and the tile of the first weighting. -/
theorem out_B_3 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : ¬cond0_0 i) (x0 : Vec F S8192x256 .f32) (x1 : Vec F S8192x64 .f32) (x2 : Vec F S8192x64 .f32) (xo3 : Vec F S1x64x256 .f32) (xo4 : Vec F S1x1x64 .f32) (xo5 : Vec F S1x64x256 .f32) (xo6 : Vec F S1x1x64 .f32) (xo7 : Vec F S1x1x1 .f32) :
    out0_B_3 c i arg2 harg2 arg3 harg3 arg4 harg4 arg5 harg5 arg6 harg6 arg7 harg7 arg8 harg8 arg9 harg9 hc0 x0 x1 x2 xo3 xo4 xo5 xo6 xo7 = k0_pay10 x0 x1 xo3 := by
  unfold out0_B_3
  rw [View.read_writes_eq_canon _ _ _ (cover0_B_3 c i arg2 harg2 arg3 harg3 arg4 harg4 arg5 harg5 arg6 harg6 arg7 harg7 arg8 harg8 arg9 harg9 hc0 x0 x1 x2 xo3 xo4 xo5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Continuing an accumulation, the total weights' block holding `xo4` ends at its update by the tile of the first weighting. -/
theorem out_B_4 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : ¬cond0_0 i) (x0 : Vec F S8192x256 .f32) (x1 : Vec F S8192x64 .f32) (x2 : Vec F S8192x64 .f32) (xo3 : Vec F S1x64x256 .f32) (xo4 : Vec F S1x1x64 .f32) (xo5 : Vec F S1x64x256 .f32) (xo6 : Vec F S1x1x64 .f32) (xo7 : Vec F S1x1x1 .f32) :
    out0_B_4 c i arg2 harg2 arg3 harg3 arg4 harg4 arg5 harg5 arg6 harg6 arg7 harg7 arg8 harg8 arg9 harg9 hc0 x0 x1 x2 xo3 xo4 xo5 xo6 xo7 = k0_pay11 x1 xo4 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 xo3 xo4 xo5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Continuing an accumulation, the cross sums' block holding `xo5` ends at its update by the three tiles. -/
theorem out_B_5 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : ¬cond0_0 i) (x0 : Vec F S8192x256 .f32) (x1 : Vec F S8192x64 .f32) (x2 : Vec F S8192x64 .f32) (xo3 : Vec F S1x64x256 .f32) (xo4 : Vec F S1x1x64 .f32) (xo5 : Vec F S1x64x256 .f32) (xo6 : Vec F S1x1x64 .f32) (xo7 : Vec F S1x1x1 .f32) :
    out0_B_5 c i arg2 harg2 arg3 harg3 arg4 harg4 arg5 harg5 arg6 harg6 arg7 harg7 arg8 harg8 arg9 harg9 hc0 x0 x1 x2 xo3 xo4 xo5 xo6 xo7 = k0_pay1 (k0_pay12 x0 x1 x2 xo5) := by
  unfold out0_B_5
  rw [View.read_writes_eq_canon _ _ _ (cover0_B_5 c i arg2 harg2 arg3 harg3 arg4 harg4 arg5 harg5 arg6 harg6 arg7 harg7 arg8 harg8 arg9 harg9 hc0 x0 x1 x2 xo3 xo4 xo5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Continuing an accumulation, the product weights' block holding `xo6` ends at its update by the two weighting tiles. -/
theorem out_B_6 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : ¬cond0_0 i) (x0 : Vec F S8192x256 .f32) (x1 : Vec F S8192x64 .f32) (x2 : Vec F S8192x64 .f32) (xo3 : Vec F S1x64x256 .f32) (xo4 : Vec F S1x1x64 .f32) (xo5 : Vec F S1x64x256 .f32) (xo6 : Vec F S1x1x64 .f32) (xo7 : Vec F S1x1x1 .f32) :
    out0_B_6 c i arg2 harg2 arg3 harg3 arg4 harg4 arg5 harg5 arg6 harg6 arg7 harg7 arg8 harg8 arg9 harg9 hc0 x0 x1 x2 xo3 xo4 xo5 xo6 xo7 = k0_pay2 (k0_pay9 x1 x2) xo6 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 xo3 xo4 xo5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Continuing an accumulation, the moment's one-entry block holding `xo7` ends at its update by the three tiles. -/
theorem out_B_7 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : ¬cond0_0 i) (x0 : Vec F S8192x256 .f32) (x1 : Vec F S8192x64 .f32) (x2 : Vec F S8192x64 .f32) (xo3 : Vec F S1x64x256 .f32) (xo4 : Vec F S1x1x64 .f32) (xo5 : Vec F S1x64x256 .f32) (xo6 : Vec F S1x1x64 .f32) (xo7 : Vec F S1x1x1 .f32) :
    out0_B_7 c i arg2 harg2 arg3 harg3 arg4 harg4 arg5 harg5 arg6 harg6 arg7 harg7 arg8 harg8 arg9 harg9 hc0 x0 x1 x2 xo3 xo4 xo5 xo6 xo7 = k0_pay3 x0 (k0_pay9 x1 x2) xo7 := by
  unfold out0_B_7
  rw [View.read_writes_eq_canon _ _ _ (cover0_B_7 c i arg2 harg2 arg3 harg3 arg4 harg4 arg5 harg5 arg6 harg6 arg7 harg7 arg8 harg8 arg9 harg9 hc0 x0 x1 x2 xo3 xo4 xo5 xo6 xo7)]
  unfold kernelRun0_B
  dsimp only
  try sl_unfold_words
  rw [View.canon_unit_zero hz3]
  simp only [View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Starting an accumulation, the same update applied to the zero block the step has just stored. -/
theorem out_A_3 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : cond0_0 i) (x0 : Vec F S8192x256 .f32) (x1 : Vec F S8192x64 .f32) (x2 : Vec F S8192x64 .f32) :
    out0_A_3 c i arg2 harg2 arg3 harg3 arg4 harg4 arg5 harg5 arg6 harg6 arg7 harg7 arg8 harg8 arg9 harg9 hc0 x0 x1 x2 = k0_pay10 x0 x1 (k0_pay4 (F := F)) := by
  unfold out0_A_3
  rw [View.read_writes_eq_canon _ _ _ (cover0_A_3 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x64x256) hz3]
  simp only [View.readCov_unit_zero (S := S1x64x256) _ hz3, View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Starting an accumulation, the same update applied to the zero block the step has just stored. -/
theorem out_A_4 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : cond0_0 i) (x0 : Vec F S8192x256 .f32) (x1 : Vec F S8192x64 .f32) (x2 : Vec F S8192x64 .f32) :
    out0_A_4 c i arg2 harg2 arg3 harg3 arg4 harg4 arg5 harg5 arg6 harg6 arg7 harg7 arg8 harg8 arg9 harg9 hc0 x0 x1 x2 = k0_pay11 x1 (k0_pay5 (F := F)) := by
  unfold out0_A_4
  rw [View.read_writes_eq_canon _ _ _ (cover0_A_4 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1x64) hz3]
  simp only [View.readCov_unit_zero (S := S1x1x64) _ hz3, View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Starting an accumulation, the same update applied to the zero block the step has just stored. -/
theorem out_A_5 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : cond0_0 i) (x0 : Vec F S8192x256 .f32) (x1 : Vec F S8192x64 .f32) (x2 : Vec F S8192x64 .f32) :
    out0_A_5 c i arg2 harg2 arg3 harg3 arg4 harg4 arg5 harg5 arg6 harg6 arg7 harg7 arg8 harg8 arg9 harg9 hc0 x0 x1 x2 = k0_pay1 (k0_pay12 x0 x1 x2 (k0_pay6 (F := F))) := by
  unfold out0_A_5
  rw [View.read_writes_eq_canon _ _ _ (cover0_A_5 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x64x256) hz3]
  simp only [View.readCov_unit_zero (S := S1x64x256) _ hz3, View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Starting an accumulation, the same update applied to the zero block the step has just stored. -/
theorem out_A_6 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : cond0_0 i) (x0 : Vec F S8192x256 .f32) (x1 : Vec F S8192x64 .f32) (x2 : Vec F S8192x64 .f32) :
    out0_A_6 c i arg2 harg2 arg3 harg3 arg4 harg4 arg5 harg5 arg6 harg6 arg7 harg7 arg8 harg8 arg9 harg9 hc0 x0 x1 x2 = k0_pay2 (k0_pay9 x1 x2) (k0_pay7 (F := F)) := by
  unfold out0_A_6
  rw [View.read_writes_eq_canon _ _ _ (cover0_A_6 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1x64) hz3]
  simp only [View.readCov_unit_zero (S := S1x1x64) _ hz3, View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

/-- Starting an accumulation, the same update applied to the zero block the step has just stored. -/
theorem out_A_7 (c : Dev nD) (i : grid0.Coords) (arg2 : Memref sig .tc .vmem S8192x256 .f32) (harg2 : arg2.IsWhole) (arg3 : Memref sig .tc .vmem S8192x64 .f32) (harg3 : arg3.IsWhole) (arg4 : Memref sig .tc .vmem S8192x64 .f32) (harg4 : arg4.IsWhole) (arg5 : Memref sig .tc .vmem S1x64x256 .f32) (harg5 : arg5.IsWhole) (arg6 : Memref sig .tc .vmem S1x1x64 .f32) (harg6 : arg6.IsWhole) (arg7 : Memref sig .tc .vmem S1x64x256 .f32) (harg7 : arg7.IsWhole) (arg8 : Memref sig .tc .vmem S1x1x64 .f32) (harg8 : arg8.IsWhole) (arg9 : Memref sig .tc .vmem S1x1x1 .f32) (harg9 : arg9.IsWhole) (hc0 : cond0_0 i) (x0 : Vec F S8192x256 .f32) (x1 : Vec F S8192x64 .f32) (x2 : Vec F S8192x64 .f32) :
    out0_A_7 c i arg2 harg2 arg3 harg3 arg4 harg4 arg5 harg5 arg6 harg6 arg7 harg7 arg8 harg8 arg9 harg9 hc0 x0 x1 x2 = k0_pay3 x0 (k0_pay9 x1 x2) (k0_pay8 (F := F)) := by
  unfold out0_A_7
  rw [View.read_writes_eq_canon _ _ _ (cover0_A_7 c i arg2 harg2 arg3 harg3 arg4 harg4 arg5 harg5 arg6 harg6 arg7 harg7 arg8 harg8 arg9 harg9 hc0 x0 x1 x2)]
  unfold kernelRun0_A
  dsimp only
  sl_unfold_words
  rw [View.canon_cons_unit_zero (S := S1x1x1) hz3]
  simp only [View.readCov_unit_zero (S := S1x1x1) _ hz3, View.readAt_eq_ld, harg2.read_unread, harg3.read_unread, harg4.read_unread, harg5.read_unread, harg6.read_unread, harg7.read_unread, harg8.read_unread, harg9.read_unread, View.ld_unit_zero (S := S8192x256) hz2, View.ld_unit_zero (S := S8192x64) hz2, View.ld_unit_zero (S := S1x64x256) hz3, View.ld_unit_zero (S := S1x1x64) hz3, View.ld_unit_zero (S := S1x1x1) hz3]

end Cert.KernelIdeal.CaseValue

end
-- ==== Proof.Accumulators.lean ====
/-
  The five accumulator blocks after each grid step, in closed form.

  The grid's sixteen steps run in order; step n belongs to core n / 8 and is that core's step n % 8.  A core's first
  step starts its five accumulators from zero blocks, every later step continues from what the step before left.
  So the blocks after step n are the update, by step n's three input tiles, of the zero blocks when n is a multiple
  of eight and of the blocks after step n - 1 otherwise: `acc`.  The generated run states the same by cases over the
  pieces it found; the two agree step by step (`outsAt_eq`, by induction on the step).
-/
import proofs.«178432_j6717328851141_2_alg».proof.Proof.CaseValues

set_option maxRecDepth 16384

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.CaseValue

variable {F : FTy → Type} [FloatOps F]
variable (m : (ℓ : Loc nD τ sig) → Buf (Elt F) ℓ)

/-- The five accumulator blocks: label sums, total weights, cross sums, product weights, the moment. -/
abbrev Blocks (F : FTy → Type) : Type :=
  Vec F S1x64x256 .f32 × Vec F S1x1x64 .f32 × Vec F S1x64x256 .f32 × Vec F S1x1x64 .f32 × Vec F S1x1x1 .f32

/-- The blocks a core's first step stores before accumulating: zeros. -/
def zeros : Blocks F := (k0_pay4, k0_pay5, k0_pay6, k0_pay7, k0_pay8)

/-- One step: the five blocks updated by a tile `x` of points and the tiles `a`, `s` of the two weightings. -/
def upd (x : Vec F S8192x256 .f32) (a s : Vec F S8192x64 .f32) (o : Blocks F) : Blocks F :=
  (k0_pay10 x a o.1, k0_pay11 a o.2.1, k0_pay1 (k0_pay12 x a s o.2.2.1), k0_pay2 (k0_pay9 a s) o.2.2.2.1,
    k0_pay3 x (k0_pay9 a s) o.2.2.2.2)

/-- The blocks after step `n`. -/
def acc (c : Dev nD) : (n : ℕ) → n < cfg0.N → Blocks F
  | 0, h => upd (iblk m c 0 ⟨0, h⟩) (iblk m c 1 ⟨0, h⟩) (iblk m c 2 ⟨0, h⟩) zeros
  | n + 1, h => upd (iblk m c 0 ⟨n + 1, h⟩) (iblk m c 1 ⟨n + 1, h⟩) (iblk m c 2 ⟨n + 1, h⟩)
      (if (n + 1) % 8 = 0 then zeros else acc c n (Nat.lt_of_succ_lt h))

/-- A step that starts an accumulation leaves the update of the zero blocks. -/
theorem startStep (c : Dev nD) (t : Fin cfg0.N) (h0 : t.val % 8 = 0) :
    outsAt0 m c t.val t.isLt = upd (iblk m c 0 t) (iblk m c 1 t) (iblk m c 2 t) zeros := by
  rw [outsAt0_A m c t h0]
  rw [out_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t),
    out_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t),
    out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t),
    out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t),
    out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk m c 0 t) (iblk m c 1 t) (iblk m c 2 t)]
  rfl

/-- A step that continues one leaves the update of what the step before left. -/
theorem nextStep (c : Dev nD) (t : Fin cfg0.N) (h0 : ¬t.val % 8 = 0) :
    outsAt0 m c t.val t.isLt = upd (iblk m c 0 t) (iblk m c 1 t) (iblk m c 2 t)
      (outsAt0 m c (t.val - 1) (Nat.lt_of_le_of_lt (Nat.sub_le _ _) t.isLt)) := by
  rw [outsAt0_B m c t h0]
  rw [out_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    out_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2,
    out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2]
  rfl

/-- The run's step-by-step contents are the closed form. -/
theorem outsAt_eq (c : Dev nD) : ∀ (n : ℕ) (h : n < cfg0.N), outsAt0 m c n h = acc m c n h
  | 0, h => startStep m c ⟨0, h⟩ rfl
  | n + 1, h => by
    by_cases h0 : (n + 1) % 8 = 0
    · rw [startStep m c ⟨n + 1, h⟩ h0]
      show _ = upd _ _ _ (if (n + 1) % 8 = 0 then zeros else acc m c n _)
      rw [if_pos h0]
    · rw [nextStep m c ⟨n + 1, h⟩ h0]
      show upd _ _ _ (outsAt0 m c n _) = upd _ _ _ (if (n + 1) % 8 = 0 then zeros else acc m c n _)
      rw [if_neg h0, outsAt_eq c n]

end Cert.KernelIdeal.Accum

end
-- ==== Proof.FinalArrays.lean ====
/-
  From blocks to arrays: what the five partial-result arrays hold after the kernel.

  Each output array has two blocks, one per core; block p is written back once, after that core's last step
  (step 8p + 7), and holds what the accumulator block held then.  So each array, index by index, is the
  accumulator after step 8p + 7 read inside its block, p the index's first coordinate; the two write-backs cover
  the array.
-/
import proofs.«178432_j6717328851141_2_alg».proof.Proof.Accumulators

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Accum

variable {F : FTy → Type} [FloatOps F]
variable (m : (ℓ : Loc nD τ sig) → Buf (Elt F) ℓ)

/-- Core `p`'s last step. -/
def lastStep (p : Fin 2) : Fin cfg0.N := ⟨8 * p.val + 7, by have h : cfg0.N = 16 := N_0; have := p.isLt; omega⟩

theorem lastStep_val (p : Fin 2) : (lastStep p).val = 8 * p.val + 7 := rfl

/-- The accumulators after equal steps are equal. -/
theorem acc_congr (c : Dev nD) {n n' : ℕ} (h : n < cfg0.N) (h' : n' < cfg0.N) (e : n = n') :
    acc m c n h = acc m c n' h' := by subst e; rfl

/-! ## Output window 3: the label sums -/

/-- The output's block index at a step is the step's core, decided over the grid. -/
theorem idx_facts3 : ∀ t : Fin cfg0.N, win0_3.index t (0 : Fin 3) = t.val / 8 ∧ win0_3.index t (1 : Fin 3) = 0
    ∧ win0_3.index t (2 : Fin 3) = 0 :=
  (by decide +kernel : ∀ t : Fin grid0.N, _)

/-- An index of the array, read inside its block. -/
def inBlk3 (i : S2x64x256.Idx) : S1x64x256.Idx := fun a => match a with
  | ⟨0, _⟩ => ⟨0, Nat.one_pos⟩
  | ⟨1, _⟩ => ⟨(i 1).val, (i 1).isLt⟩
  | ⟨2, _⟩ => ⟨(i 2).val, (i 2).isLt⟩

/-- The array the label sums end as: at an index of core `p`'s block, the accumulator after that core's last step. -/
def G3 (c : Dev nD) : S2x64x256.Idx → Elt F .f32 := fun i =>
  (acc m c (lastStep ⟨(i 0).val, (i 0).isLt⟩).val (lastStep ⟨(i 0).val, (i 0).isLt⟩).isLt).1 (inBlk3 i)

/-- What a write-back writes is its block of that array. -/
theorem flushed3_eq (c : Dev nD) (t : Fin cfg0.N) (hf : (cfg0.win 3).flush t = true) :
    (dats m 0 c).flushed 3 t = ((cfg0.win 3).blk t).view.read (Elt F) (G3 m c) := by
  have h7 : t.val % 8 = 7 := (flush0_3 t).mp hf
  have hN : cfg0.N = 16 := N_0
  obtain ⟨e0, e1, e2⟩ := idx_facts3 t
  show (cfg0.win 3).cut (grid0.coords t) ((dats m 0 c).after 3 t) = _
  rw [after0_3, outsAt_eq]
  funext j
  rw [View.read_apply]
  have hj0 : (j 0).val < 1 := (j 0).isLt
  have ep : (lastStep ⟨((((cfg0.win 3).blk t).view.emb j) 0).val, ((((cfg0.win 3).blk t).view.emb j) 0).isLt⟩).val = t.val := by
    show 8 * (win0_3.index t (0 : Fin 3) * 1 + 1 * (j 0).val) + 7 = t.val
    omega
  have ej : inBlk3 (((cfg0.win 3).blk t).view.emb j) = j := by
    funext a; apply Fin.ext
    match a with
    | ⟨0, _⟩ => show 0 = (j 0).val; omega
    | ⟨1, _⟩ => show win0_3.index t (1 : Fin 3) * 64 + 1 * (j 1).val = (j 1).val; omega
    | ⟨2, _⟩ => show win0_3.index t (2 : Fin 3) * 256 + 1 * (j 2).val = (j 2).val; omega
  show (acc m c t.val t.isLt).1 j = G3 m c (((cfg0.win 3).blk t).view.emb j)
  unfold G3
  rw [ej, acc_congr m c _ t.isLt ep]

/-- An index of the array is in a step's block iff each coordinate is in the block's range. -/
theorem mem_blk3 (t : Fin cfg0.N) (i : S2x64x256.Idx) :
    i ∈ ((cfg0.win 3).blk t).view.set ↔ ∀ a : Fin 3, win0_3.index t a * S1x64x256.size a ≤ (i a).val ∧ (i a).val < win0_3.index t a * S1x64x256.size a + S1x64x256.size a := by
  show i ∈ ((View.whole main_v0_0).slice (win0_3.rect t)).set ↔ _
  rw [View.set_slice_whole, Rect.mem_set_unit]
  exact Iff.rfl

/-- The two write-backs cover the array. -/
theorem cover3 (i : S2x64x256.Idx) :
    ∃ t : Fin cfg0.N, (cfg0.win 3).flush t = true ∧ i ∈ ((cfg0.win 3).blk t).view.set := by
  have hi0 : (i 0).val < 2 := (i 0).isLt
  have hi1 : (i 1).val < 64 := (i 1).isLt
  have hi2 : (i 2).val < 256 := (i 2).isLt
  have ht : (lastStep ⟨(i 0).val, hi0⟩).val = 8 * (i 0).val + 7 := rfl
  obtain ⟨e0, e1, e2⟩ := idx_facts3 (lastStep ⟨(i 0).val, hi0⟩)
  refine ⟨lastStep ⟨(i 0).val, hi0⟩, (flush0_3 _).mpr (by omega), ?_⟩
  rw [mem_blk3]
  intro a
  match a with
  | ⟨0, _⟩ => show win0_3.index (lastStep ⟨(i 0).val, hi0⟩) (0 : Fin 3) * 1 ≤ (i 0).val ∧ (i 0).val < win0_3.index (lastStep ⟨(i 0).val, hi0⟩) (0 : Fin 3) * 1 + 1; omega
  | ⟨1, _⟩ => show win0_3.index (lastStep ⟨(i 0).val, hi0⟩) (1 : Fin 3) * 64 ≤ (i 1).val ∧ (i 1).val < win0_3.index (lastStep ⟨(i 0).val, hi0⟩) (1 : Fin 3) * 64 + 64; omega
  | ⟨2, _⟩ => show win0_3.index (lastStep ⟨(i 0).val, hi0⟩) (2 : Fin 3) * 256 ≤ (i 2).val ∧ (i 2).val < win0_3.index (lastStep ⟨(i 0).val, hi0⟩) (2 : Fin 3) * 256 + 256; omega

/-- So the array ends as `G3`. -/
theorem final3 (c : Dev nD) : (dats m 0 c).arrAt 3 cfg0.N = G3 m c :=
  (dats m 0 c).arrAt_eq_of_cover 3 (G3 m c) (flushed3_eq m c) (cover3)

/-! ## Output window 4: the total weights -/

/-- The output's block index at a step is the step's core, decided over the grid. -/
theorem idx_facts4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- An index of the array, read inside its block. -/
def inBlk4 (i : S2x1x64.Idx) : S1x1x64.Idx := fun a => match a with
  | ⟨0, _⟩ => ⟨0, Nat.one_pos⟩
  | ⟨1, _⟩ => ⟨(i 1).val, (i 1).isLt⟩
  | ⟨2, _⟩ => ⟨(i 2).val, (i 2).isLt⟩

/-- The array the total weights end as: at an index of core `p`'s block, the accumulator after that core's last step. -/
def G4 (c : Dev nD) : S2x1x64.Idx → Elt F .f32 := fun i =>
  (acc m c (lastStep ⟨(i 0).val, (i 0).isLt⟩).val (lastStep ⟨(i 0).val, (i 0).isLt⟩).isLt).2.1 (inBlk4 i)

/-- What a write-back writes is its block of that array. -/
theorem flushed4_eq (c : Dev nD) (t : Fin cfg0.N) (hf : (cfg0.win 4).flush t = true) :
    (dats m 0 c).flushed 4 t = ((cfg0.win 4).blk t).view.read (Elt F) (G4 m c) := by
  have h7 : t.val % 8 = 7 := (flush0_4 t).mp hf
  have hN : cfg0.N = 16 := N_0
  obtain ⟨e0, e1, e2⟩ := idx_facts4 t
  show (cfg0.win 4).cut (grid0.coords t) ((dats m 0 c).after 4 t) = _
  rw [after0_4, outsAt_eq]
  funext j
  rw [View.read_apply]
  have hj0 : (j 0).val < 1 := (j 0).isLt
  have ep : (lastStep ⟨((((cfg0.win 4).blk t).view.emb j) 0).val, ((((cfg0.win 4).blk t).view.emb j) 0).isLt⟩).val = t.val := by
    show 8 * (win0_4.index t (0 : Fin 3) * 1 + 1 * (j 0).val) + 7 = t.val
    omega
  have ej : inBlk4 (((cfg0.win 4).blk t).view.emb j) = j := by
    funext a; apply Fin.ext
    match a with
    | ⟨0, _⟩ => show 0 = (j 0).val; omega
    | ⟨1, _⟩ => show win0_4.index t (1 : Fin 3) * 1 + 1 * (j 1).val = (j 1).val; omega
    | ⟨2, _⟩ => show win0_4.index t (2 : Fin 3) * 64 + 1 * (j 2).val = (j 2).val; omega
  show (acc m c t.val t.isLt).2.1 j = G4 m c (((cfg0.win 4).blk t).view.emb j)
  unfold G4
  rw [ej, acc_congr m c _ t.isLt ep]

/-- An index of the array is in a step's block iff each coordinate is in the block's range. -/
theorem mem_blk4 (t : Fin cfg0.N) (i : S2x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v0_1).slice (win0_4.rect t)).set ↔ _
  rw [View.set_slice_whole, Rect.mem_set_unit]
  exact Iff.rfl

/-- The two write-backs cover the array. -/
theorem cover4 (i : S2x1x64.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 64 := (i 2).isLt
  have ht : (lastStep ⟨(i 0).val, hi0⟩).val = 8 * (i 0).val + 7 := rfl
  obtain ⟨e0, e1, e2⟩ := idx_facts4 (lastStep ⟨(i 0).val, hi0⟩)
  refine ⟨lastStep ⟨(i 0).val, hi0⟩, (flush0_4 _).mpr (by omega), ?_⟩
  rw [mem_blk4]
  intro a
  match a with
  | ⟨0, _⟩ => show win0_4.index (lastStep ⟨(i 0).val, hi0⟩) (0 : Fin 3) * 1 ≤ (i 0).val ∧ (i 0).val < win0_4.index (lastStep ⟨(i 0).val, hi0⟩) (0 : Fin 3) * 1 + 1; omega
  | ⟨1, _⟩ => show win0_4.index (lastStep ⟨(i 0).val, hi0⟩) (1 : Fin 3) * 1 ≤ (i 1).val ∧ (i 1).val < win0_4.index (lastStep ⟨(i 0).val, hi0⟩) (1 : Fin 3) * 1 + 1; omega
  | ⟨2, _⟩ => show win0_4.index (lastStep ⟨(i 0).val, hi0⟩) (2 : Fin 3) * 64 ≤ (i 2).val ∧ (i 2).val < win0_4.index (lastStep ⟨(i 0).val, hi0⟩) (2 : Fin 3) * 64 + 64; omega

/-- So the array ends as `G4`. -/
theorem final4 (c : Dev nD) : (dats m 0 c).arrAt 4 cfg0.N = G4 m c :=
  (dats m 0 c).arrAt_eq_of_cover 4 (G4 m c) (flushed4_eq m c) (cover4)

/-! ## Output window 5: the cross sums -/

/-- The output's block index at a step is the step's core, decided over the grid. -/
theorem idx_facts5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- An index of the array, read inside its block. -/
def inBlk5 (i : S2x64x256.Idx) : S1x64x256.Idx := fun a => match a with
  | ⟨0, _⟩ => ⟨0, Nat.one_pos⟩
  | ⟨1, _⟩ => ⟨(i 1).val, (i 1).isLt⟩
  | ⟨2, _⟩ => ⟨(i 2).val, (i 2).isLt⟩

/-- The array the cross sums end as: at an index of core `p`'s block, the accumulator after that core's last step. -/
def G5 (c : Dev nD) : S2x64x256.Idx → Elt F .f32 := fun i =>
  (acc m c (lastStep ⟨(i 0).val, (i 0).isLt⟩).val (lastStep ⟨(i 0).val, (i 0).isLt⟩).isLt).2.2.1 (inBlk5 i)

/-- What a write-back writes is its block of that array. -/
theorem flushed5_eq (c : Dev nD) (t : Fin cfg0.N) (hf : (cfg0.win 5).flush t = true) :
    (dats m 0 c).flushed 5 t = ((cfg0.win 5).blk t).view.read (Elt F) (G5 m c) := by
  have h7 : t.val % 8 = 7 := (flush0_5 t).mp hf
  have hN : cfg0.N = 16 := N_0
  obtain ⟨e0, e1, e2⟩ := idx_facts5 t
  show (cfg0.win 5).cut (grid0.coords t) ((dats m 0 c).after 5 t) = _
  rw [after0_5, outsAt_eq]
  funext j
  rw [View.read_apply]
  have hj0 : (j 0).val < 1 := (j 0).isLt
  have ep : (lastStep ⟨((((cfg0.win 5).blk t).view.emb j) 0).val, ((((cfg0.win 5).blk t).view.emb j) 0).isLt⟩).val = t.val := by
    show 8 * (win0_5.index t (0 : Fin 3) * 1 + 1 * (j 0).val) + 7 = t.val
    omega
  have ej : inBlk5 (((cfg0.win 5).blk t).view.emb j) = j := by
    funext a; apply Fin.ext
    match a with
    | ⟨0, _⟩ => show 0 = (j 0).val; omega
    | ⟨1, _⟩ => show win0_5.index t (1 : Fin 3) * 64 + 1 * (j 1).val = (j 1).val; omega
    | ⟨2, _⟩ => show win0_5.index t (2 : Fin 3) * 256 + 1 * (j 2).val = (j 2).val; omega
  show (acc m c t.val t.isLt).2.2.1 j = G5 m c (((cfg0.win 5).blk t).view.emb j)
  unfold G5
  rw [ej, acc_congr m c _ t.isLt ep]

/-- An index of the array is in a step's block iff each coordinate is in the block's range. -/
theorem mem_blk5 (t : Fin cfg0.N) (i : S2x64x256.Idx) :
    i ∈ ((cfg0.win 5).blk t).view.set ↔ ∀ a : Fin 3, win0_5.index t a * S1x64x256.size a ≤ (i a).val ∧ (i a).val < win0_5.index t a * S1x64x256.size a + S1x64x256.size a := by
  show i ∈ ((View.whole main_v0_2).slice (win0_5.rect t)).set ↔ _
  rw [View.set_slice_whole, Rect.mem_set_unit]
  exact Iff.rfl

/-- The two write-backs cover the array. -/
theorem cover5 (i : S2x64x256.Idx) :
    ∃ t : Fin cfg0.N, (cfg0.win 5).flush t = true ∧ i ∈ ((cfg0.win 5).blk t).view.set := by
  have hi0 : (i 0).val < 2 := (i 0).isLt
  have hi1 : (i 1).val < 64 := (i 1).isLt
  have hi2 : (i 2).val < 256 := (i 2).isLt
  have ht : (lastStep ⟨(i 0).val, hi0⟩).val = 8 * (i 0).val + 7 := rfl
  obtain ⟨e0, e1, e2⟩ := idx_facts5 (lastStep ⟨(i 0).val, hi0⟩)
  refine ⟨lastStep ⟨(i 0).val, hi0⟩, (flush0_5 _).mpr (by omega), ?_⟩
  rw [mem_blk5]
  intro a
  match a with
  | ⟨0, _⟩ => show win0_5.index (lastStep ⟨(i 0).val, hi0⟩) (0 : Fin 3) * 1 ≤ (i 0).val ∧ (i 0).val < win0_5.index (lastStep ⟨(i 0).val, hi0⟩) (0 : Fin 3) * 1 + 1; omega
  | ⟨1, _⟩ => show win0_5.index (lastStep ⟨(i 0).val, hi0⟩) (1 : Fin 3) * 64 ≤ (i 1).val ∧ (i 1).val < win0_5.index (lastStep ⟨(i 0).val, hi0⟩) (1 : Fin 3) * 64 + 64; omega
  | ⟨2, _⟩ => show win0_5.index (lastStep ⟨(i 0).val, hi0⟩) (2 : Fin 3) * 256 ≤ (i 2).val ∧ (i 2).val < win0_5.index (lastStep ⟨(i 0).val, hi0⟩) (2 : Fin 3) * 256 + 256; omega

/-- So the array ends as `G5`. -/
theorem final5 (c : Dev nD) : (dats m 0 c).arrAt 5 cfg0.N = G5 m c :=
  (dats m 0 c).arrAt_eq_of_cover 5 (G5 m c) (flushed5_eq m c) (cover5)

/-! ## Output window 6: the product weights -/

/-- The output's block index at a step is the step's core, decided over the grid. -/
theorem idx_facts6 : ∀ t : Fin cfg0.N, win0_6.index t (0 : Fin 3) = t.val / 8 ∧ win0_6.index t (1 : Fin 3) = 0
    ∧ win0_6.index t (2 : Fin 3) = 0 :=
  (by decide +kernel : ∀ t : Fin grid0.N, _)

/-- An index of the array, read inside its block. -/
def inBlk6 (i : S2x1x64.Idx) : S1x1x64.Idx := fun a => match a with
  | ⟨0, _⟩ => ⟨0, Nat.one_pos⟩
  | ⟨1, _⟩ => ⟨(i 1).val, (i 1).isLt⟩
  | ⟨2, _⟩ => ⟨(i 2).val, (i 2).isLt⟩

/-- The array the product weights end as: at an index of core `p`'s block, the accumulator after that core's last step. -/
def G6 (c : Dev nD) : S2x1x64.Idx → Elt F .f32 := fun i =>
  (acc m c (lastStep ⟨(i 0).val, (i 0).isLt⟩).val (lastStep ⟨(i 0).val, (i 0).isLt⟩).isLt).2.2.2.1 (inBlk6 i)

/-- What a write-back writes is its block of that array. -/
theorem flushed6_eq (c : Dev nD) (t : Fin cfg0.N) (hf : (cfg0.win 6).flush t = true) :
    (dats m 0 c).flushed 6 t = ((cfg0.win 6).blk t).view.read (Elt F) (G6 m c) := by
  have h7 : t.val % 8 = 7 := (flush0_6 t).mp hf
  have hN : cfg0.N = 16 := N_0
  obtain ⟨e0, e1, e2⟩ := idx_facts6 t
  show (cfg0.win 6).cut (grid0.coords t) ((dats m 0 c).after 6 t) = _
  rw [after0_6, outsAt_eq]
  funext j
  rw [View.read_apply]
  have hj0 : (j 0).val < 1 := (j 0).isLt
  have ep : (lastStep ⟨((((cfg0.win 6).blk t).view.emb j) 0).val, ((((cfg0.win 6).blk t).view.emb j) 0).isLt⟩).val = t.val := by
    show 8 * (win0_6.index t (0 : Fin 3) * 1 + 1 * (j 0).val) + 7 = t.val
    omega
  have ej : inBlk6 (((cfg0.win 6).blk t).view.emb j) = j := by
    funext a; apply Fin.ext
    match a with
    | ⟨0, _⟩ => show 0 = (j 0).val; omega
    | ⟨1, _⟩ => show win0_6.index t (1 : Fin 3) * 1 + 1 * (j 1).val = (j 1).val; omega
    | ⟨2, _⟩ => show win0_6.index t (2 : Fin 3) * 64 + 1 * (j 2).val = (j 2).val; omega
  show (acc m c t.val t.isLt).2.2.2.1 j = G6 m c (((cfg0.win 6).blk t).view.emb j)
  unfold G6
  rw [ej, acc_congr m c _ t.isLt ep]

/-- An index of the array is in a step's block iff each coordinate is in the block's range. -/
theorem mem_blk6 (t : Fin cfg0.N) (i : S2x1x64.Idx) :
    i ∈ ((cfg0.win 6).blk t).view.set ↔ ∀ a : Fin 3, win0_6.index t a * S1x1x64.size a ≤ (i a).val ∧ (i a).val < win0_6.index t a * S1x1x64.size a + S1x1x64.size a := by
  show i ∈ ((View.whole main_v0_3).slice (win0_6.rect t)).set ↔ _
  rw [View.set_slice_whole, Rect.mem_set_unit]
  exact Iff.rfl

/-- The two write-backs cover the array. -/
theorem cover6 (i : S2x1x64.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 64 := (i 2).isLt
  have ht : (lastStep ⟨(i 0).val, hi0⟩).val = 8 * (i 0).val + 7 := rfl
  obtain ⟨e0, e1, e2⟩ := idx_facts6 (lastStep ⟨(i 0).val, hi0⟩)
  refine ⟨lastStep ⟨(i 0).val, hi0⟩, (flush0_6 _).mpr (by omega), ?_⟩
  rw [mem_blk6]
  intro a
  match a with
  | ⟨0, _⟩ => show win0_6.index (lastStep ⟨(i 0).val, hi0⟩) (0 : Fin 3) * 1 ≤ (i 0).val ∧ (i 0).val < win0_6.index (lastStep ⟨(i 0).val, hi0⟩) (0 : Fin 3) * 1 + 1; omega
  | ⟨1, _⟩ => show win0_6.index (lastStep ⟨(i 0).val, hi0⟩) (1 : Fin 3) * 1 ≤ (i 1).val ∧ (i 1).val < win0_6.index (lastStep ⟨(i 0).val, hi0⟩) (1 : Fin 3) * 1 + 1; omega
  | ⟨2, _⟩ => show win0_6.index (lastStep ⟨(i 0).val, hi0⟩) (2 : Fin 3) * 64 ≤ (i 2).val ∧ (i 2).val < win0_6.index (lastStep ⟨(i 0).val, hi0⟩) (2 : Fin 3) * 64 + 64; omega

/-- So the array ends as `G6`. -/
theorem final6 (c : Dev nD) : (dats m 0 c).arrAt 6 cfg0.N = G6 m c :=
  (dats m 0 c).arrAt_eq_of_cover 6 (G6 m c) (flushed6_eq m c) (cover6)

/-! ## Output window 7: the moment -/

/-- The output's block index at a step is the step's core, decided over the grid. -/
theorem idx_facts7 : ∀ t : Fin cfg0.N, win0_7.index t (0 : Fin 3) = t.val / 8 ∧ win0_7.index t (1 : Fin 3) = 0
    ∧ win0_7.index t (2 : Fin 3) = 0 :=
  (by decide +kernel : ∀ t : Fin grid0.N, _)

/-- An index of the array, read inside its block. -/
def inBlk7 (i : S2x1x1.Idx) : S1x1x1.Idx := fun a => match a with
  | ⟨0, _⟩ => ⟨0, Nat.one_pos⟩
  | ⟨1, _⟩ => ⟨(i 1).val, (i 1).isLt⟩
  | ⟨2, _⟩ => ⟨(i 2).val, (i 2).isLt⟩

/-- The array the moment end as: at an index of core `p`'s block, the accumulator after that core's last step. -/
def G7 (c : Dev nD) : S2x1x1.Idx → Elt F .f32 := fun i =>
  (acc m c (lastStep ⟨(i 0).val, (i 0).isLt⟩).val (lastStep ⟨(i 0).val, (i 0).isLt⟩).isLt).2.2.2.2 (inBlk7 i)

/-- What a write-back writes is its block of that array. -/
theorem flushed7_eq (c : Dev nD) (t : Fin cfg0.N) (hf : (cfg0.win 7).flush t = true) :
    (dats m 0 c).flushed 7 t = ((cfg0.win 7).blk t).view.read (Elt F) (G7 m c) := by
  have h7 : t.val % 8 = 7 := (flush0_7 t).mp hf
  have hN : cfg0.N = 16 := N_0
  obtain ⟨e0, e1, e2⟩ := idx_facts7 t
  show (cfg0.win 7).cut (grid0.coords t) ((dats m 0 c).after 7 t) = _
  rw [after0_7, outsAt_eq]
  funext j
  rw [View.read_apply]
  have hj0 : (j 0).val < 1 := (j 0).isLt
  have ep : (lastStep ⟨((((cfg0.win 7).blk t).view.emb j) 0).val, ((((cfg0.win 7).blk t).view.emb j) 0).isLt⟩).val = t.val := by
    show 8 * (win0_7.index t (0 : Fin 3) * 1 + 1 * (j 0).val) + 7 = t.val
    omega
  have ej : inBlk7 (((cfg0.win 7).blk t).view.emb j) = j := by
    funext a; apply Fin.ext
    match a with
    | ⟨0, _⟩ => show 0 = (j 0).val; omega
    | ⟨1, _⟩ => show win0_7.index t (1 : Fin 3) * 1 + 1 * (j 1).val = (j 1).val; omega
    | ⟨2, _⟩ => show win0_7.index t (2 : Fin 3) * 1 + 1 * (j 2).val = (j 2).val; omega
  show (acc m c t.val t.isLt).2.2.2.2 j = G7 m c (((cfg0.win 7).blk t).view.emb j)
  unfold G7
  rw [ej, acc_congr m c _ t.isLt ep]

/-- An index of the array is in a step's block iff each coordinate is in the block's range. -/
theorem mem_blk7 (t : Fin cfg0.N) (i : S2x1x1.Idx) :
    i ∈ ((cfg0.win 7).blk t).view.set ↔ ∀ a : Fin 3, win0_7.index t a * S1x1x1.size a ≤ (i a).val ∧ (i a).val < win0_7.index t a * S1x1x1.size a + S1x1x1.size a := by
  show i ∈ ((View.whole main_v0_4).slice (win0_7.rect t)).set ↔ _
  rw [View.set_slice_whole, Rect.mem_set_unit]
  exact Iff.rfl

/-- The two write-backs cover the array. -/
theorem cover7 (i : S2x1x1.Idx) :
    ∃ t : Fin cfg0.N, (cfg0.win 7).flush t = true ∧ i ∈ ((cfg0.win 7).blk t).view.set := by
  have hi0 : (i 0).val < 2 := (i 0).isLt
  have hi1 : (i 1).val < 1 := (i 1).isLt
  have hi2 : (i 2).val < 1 := (i 2).isLt
  have ht : (lastStep ⟨(i 0).val, hi0⟩).val = 8 * (i 0).val + 7 := rfl
  obtain ⟨e0, e1, e2⟩ := idx_facts7 (lastStep ⟨(i 0).val, hi0⟩)
  refine ⟨lastStep ⟨(i 0).val, hi0⟩, (flush0_7 _).mpr (by omega), ?_⟩
  rw [mem_blk7]
  intro a
  match a with
  | ⟨0, _⟩ => show win0_7.index (lastStep ⟨(i 0).val, hi0⟩) (0 : Fin 3) * 1 ≤ (i 0).val ∧ (i 0).val < win0_7.index (lastStep ⟨(i 0).val, hi0⟩) (0 : Fin 3) * 1 + 1; omega
  | ⟨1, _⟩ => show win0_7.index (lastStep ⟨(i 0).val, hi0⟩) (1 : Fin 3) * 1 ≤ (i 1).val ∧ (i 1).val < win0_7.index (lastStep ⟨(i 0).val, hi0⟩) (1 : Fin 3) * 1 + 1; omega
  | ⟨2, _⟩ => show win0_7.index (lastStep ⟨(i 0).val, hi0⟩) (2 : Fin 3) * 1 ≤ (i 2).val ∧ (i 2).val < win0_7.index (lastStep ⟨(i 0).val, hi0⟩) (2 : Fin 3) * 1 + 1; omega

/-- So the array ends as `G7`. -/
theorem final7 (c : Dev nD) : (dats m 0 c).arrAt 7 cfg0.N = G7 m c :=
  (dats m 0 c).arrAt_eq_of_cover 7 (G7 m c) (flushed7_eq m c) (cover7)

end Cert.KernelIdeal.Arrays

end
-- ==== Proof.LibAfterAppend.lean ====
/-
  A line of host operations run in two parts.

  The buffer contents after a list of host operations are a fold of the operations over the starting contents, so the
  contents after a concatenation are those after the second part, started from what the first part left. A long line
  one of whose intermediate results is read several times can thus be read part by part, the shared result kept as
  one term.
-/
import Idealize.ShloMosaic.Lib.StableHlo.Run

namespace Cert.LibAfterAppend

open Idealize.ShloMosaic Idealize.ShloMosaic.StableHlo

variable {τ : Topo} {sig : RefSig} {Val : EltTy → Type}

/-- Running `l₁ ++ l₂` from the contents `V` is running `l₂` from what `l₁` leaves of `V`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.LibAfterAppend
-- ==== Proof.HostTail.lean ====
/-
  The host lines after the kernel, as whole-array functions of the kernel's five partial-result arrays.

  Each partial-result array has one block per core; the host first adds the two cores' blocks (sumCores…), then
  updates the cluster means from the label sums, the total weights and the previous means — blend is the running
  average of the previous mean and the batch mean labelSum / max(freq, ε); keepBit says whether a cluster's total
  weight exceeds ε; pick keeps the previous mean where it does not — and last forms the loss from the moment, the
  product weights, the cross sums and the updated means (lossOf):
  ((T + Σ_k W k · Σ_d M k d · M k d) − 2 · Σ_{k,d} M k d · C k d) / 131072.
  The host lines come in three stretches (before, inside and after the outlined selection); each result is read off
  its stretch and the stretches are chained.
-/
import proofs.«178432_j6717328851141_2_alg».proof.Proof.FinalArrays
import proofs.«178432_j6717328851141_2_alg».proof.Proof.LibAfterAppend
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen Cert.KernelIdeal.Accum Cert.KernelIdeal.Arrays

variable {F : FTy → Type} [FloatOps F]

/-- The two cores' [64,256] blocks added. -/
def sumCores3 (O : FVec F S2x64x256 .f32) : FVec F S64x256 .f32 :=
  Host.reduceAdd O (constant S_ .f32 0x00000000#32) reducesTo_S2x64x256_S64x256_d0 h_S_

/-- The two cores' [1,64] blocks added, as a vector of 64. -/
def sumCores2 (O : FVec F S2x1x64 .f32) : FVec F S64 .f32 :=
  shapeCast S64 (Host.reduceAdd O (constant S_ .f32 0x00000000#32) reducesTo_S2x1x64_S1x64_d0 h_S_) shapeCasts_S1x64_S64

/-- The two cores' [1,1] blocks added, as a scalar. -/
def sumCores1 (O : FVec F S2x1x1 .f32) : FVec F S_ .f32 :=
  shapeCast S_ (Host.reduceAdd O (constant S_ .f32 0x00000000#32) reducesTo_S2x1x1_S1x1_d0 h_S_) shapeCasts_S1x1_S_

/-- Per cluster, whether its total weight exceeds ε, as a column. -/
def keepBit (fr : FVec F S64 .f32) : IVec S64x1 1 :=
  broadcastInDim S64x1 ![0] bcast_S64_S64x1_0
    (cmpf .ogt fr (broadcastInDim S64 ![] bcast_S_S64 (constant S_ .f32 0x2B8CBCCC#32)))

/-- The running average of the previous means and the batch means labelSum / max(freq, ε). -/
def blend (ls : FVec F S64x256 .f32) (fr : FVec F S64 .f32) (pm : FVec F S64x256 .f32) : FVec F S64x256 .f32 :=
  addf (mulf pm (broadcastInDim S64x256 ![] bcast_S_S64x256 (constant S_ .f32 0x3F000000#32)))
    (mulf
      (Host.divf ls (broadcastInDim S64x256 ![0, 1] bcast_S64x1_S64x256_0_1 (broadcastInDim S64x1 ![0] bcast_S64_S64x1_0
        (maximumf fr (broadcastInDim S64 ![] bcast_S_S64 (constant S_ .f32 0x2B8CBCCC#32))))))
      (broadcastInDim S64x256 ![] bcast_S_S64x256 (constant S_ .f32 0x3F000000#32)))

/-- The new mean where the cluster's bit is set, the previous mean elsewhere. -/
def pick (bit : IVec S64x1 1) (new old : FVec F S64x256 .f32) : FVec F S64x256 .f32 :=
  select (broadcastInDim S64x256 ![0, 1] bcast_S64x1_S64x256_0_1 bit) new old

/-- The loss from the updated means, the cross sums, the product weights and the moment. -/
def lossOf (lm C : FVec F S64x256 .f32) (Wt : FVec F S64 .f32) (T : FVec F S_ .f32) : FVec F S_ .f32 :=
  Host.divf
    (subf
      (addf T
        (Host.reduceAdd
          (mulf Wt (Host.reduceAdd (mulf lm lm) (constant S_ .f32 0x00000000#32) reducesTo_S64x256_S64_d1 h_S_))
          (constant S_ .f32 0x00000000#32) reducesTo_S64_S_d0 h_S_))
      (mulf (constant S_ .f32 0x40000000#32)
        (Host.reduceAdd (mulf lm C) (constant S_ .f32 0x00000000#32) reducesTo_S64x256_S_d0_1 h_S_)))
    (constant S_ .f32 0x48000000#32)

/-! ## The first stretch -/

section Stretch1
variable (W : Valuation τ sig (Elt F))

theorem s1_ls : after hostOps1 W (Proc.devRef .tc main_v1) = sumCores3 (W (Proc.devRef .tc main_v0_0)) := by
  after_results; rfl
theorem s1_fr : after hostOps1 W (Proc.devRef .tc main_v3) = sumCores2 (W (Proc.devRef .tc main_v0_1)) := by
  after_results; rfl
theorem s1_C : after hostOps1 W (Proc.devRef .tc main_v4) = sumCores3 (W (Proc.devRef .tc main_v0_2)) := by
  after_results; rfl
theorem s1_Wt : after hostOps1 W (Proc.devRef .tc main_v6) = sumCores2 (W (Proc.devRef .tc main_v0_3)) := by
  after_results; rfl
theorem s1_T : after hostOps1 W (Proc.devRef .tc main_v8) = sumCores1 (W (Proc.devRef .tc main_v0_4)) := by
  after_results; rfl
set_option maxHeartbeats 1000000 in
theorem s1_bit : after hostOps1 W (Proc.devRef .tc main_v16) = keepBit (sumCores2 (W (Proc.devRef .tc main_v0_1))) := by
  after_results_simp; rfl
set_option maxHeartbeats 2000000 in
theorem s1_new : after hostOps1 W (Proc.devRef .tc main_v21)
    = blend (sumCores3 (W (Proc.devRef .tc main_v0_0))) (sumCores2 (W (Proc.devRef .tc main_v0_1))) (W (Proc.devRef .tc main_arg3)) := by
  after_results_simp; rfl
theorem s1_pm : after hostOps1 W (Proc.devRef .tc main_arg3) = W (Proc.devRef .tc main_arg3) := by
  after_results

end Stretch1

/-! ## The outlined selection and the last stretch -/

section Stretch23
variable (W : Valuation τ sig (Elt F))

theorem s2_means : after hostOps1_1 W (Proc.devRef .tc main_v22)
    = pick (W (Proc.devRef .tc main_v16)) (W (Proc.devRef .tc main_v21)) (W (Proc.devRef .tc main_arg3)) := by
  after_results; rfl
theorem s2_C : after hostOps1_1 W (Proc.devRef .tc main_v4) = W (Proc.devRef .tc main_v4) := by after_results
theorem s2_Wt : after hostOps1_1 W (Proc.devRef .tc main_v6) = W (Proc.devRef .tc main_v6) := by after_results
theorem s2_T : after hostOps1_1 W (Proc.devRef .tc main_v8) = W (Proc.devRef .tc main_v8) := by after_results

theorem s3_loss : after hostOps1_2 W (Proc.devRef .tc main_v32)
    = lossOf (W (Proc.devRef .tc main_v22)) (W (Proc.devRef .tc main_v4)) (W (Proc.devRef .tc main_v6)) (W (Proc.devRef .tc main_v8)) := by
  after_results; rfl
theorem s3_means : after hostOps1_2 W (Proc.devRef .tc main_v22) = W (Proc.devRef .tc main_v22) := by after_results

end Stretch23

/-! ## The three stretches chained -/

theorem split3 (W : Valuation τ sig (Elt F)) :
    after (List.flatten [hostOps1, hostOps1_1, hostOps1_2]) W = after hostOps1_2 (after hostOps1_1 (after hostOps1 W)) := by
  show after (hostOps1 ++ (hostOps1_1 ++ (hostOps1_2 ++ []))) W = _
  rw [List.append_nil, Cert.LibAfterAppend.after_append, Cert.LibAfterAppend.after_append]

/-- The updated means as the host computes them from the partial-result arrays and the previous means. -/
def meansOf (O3 : FVec F S2x64x256 .f32) (O4 : FVec F S2x1x64 .f32) (pm : FVec F S64x256 .f32) : FVec F S64x256 .f32 :=
  pick (keepBit (sumCores2 O4)) (blend (sumCores3 O3) (sumCores2 O4) pm) pm

theorem tail_means (W : Valuation τ sig (Elt F)) :
    after (List.flatten [hostOps1, hostOps1_1, hostOps1_2]) W (Proc.devRef .tc main_v22)
      = meansOf (W (Proc.devRef .tc main_v0_0)) (W (Proc.devRef .tc main_v0_1)) (W (Proc.devRef .tc main_arg3)) := by
  rw [split3, s3_means, s2_means, s1_bit, s1_new, s1_pm]
  rfl

theorem tail_loss (W : Valuation τ sig (Elt F)) :
    after (List.flatten [hostOps1, hostOps1_1, hostOps1_2]) W (Proc.devRef .tc main_v32)
      = lossOf (meansOf (W (Proc.devRef .tc main_v0_0)) (W (Proc.devRef .tc main_v0_1)) (W (Proc.devRef .tc main_arg3)))
          (sumCores3 (W (Proc.devRef .tc main_v0_2))) (sumCores2 (W (Proc.devRef .tc main_v0_3))) (sumCores1 (W (Proc.devRef .tc main_v0_4))) := by
  rw [split3, s3_loss, s2_means, s2_C, s2_Wt, s2_T, s1_bit, s1_new, s1_pm, s1_C, s1_Wt, s1_T]
  rfl

end Cert.KernelIdeal.Tail

end
-- ==== Proof.KernelRun.lean ====
/-
  The kernel's run, read: after every fair execution the loss buffer and the means buffer hold the host tail's
  functions of the five partial-result arrays the grid leaves, and the four argument arrays are unchanged.
-/
import proofs.«178432_j6717328851141_2_alg».proof.Proof.HostTail

set_option maxRecDepth 16384

noncomputable section

open Idealize.ShloMosaic Idealize.ShloMosaic.TcCoe Idealize.SL.Sem Idealize.ShloMosaic.StableHlo
open Idealize.ShloMosaic.Pipeline (Dat)

namespace Cert.KernelIdeal.KernelRun

open Cert.KernelIdeal Cert.KernelIdeal.Gen Cert.KernelIdeal.Accum Cert.KernelIdeal.Arrays Cert.KernelIdeal.Tail

variable {F : FTy → Type} [FloatOps F]
variable (m : (ℓ : Loc nD τ sig) → Buf (Elt F) ℓ) (ρ : Dev nD → PrngReg)

/-- The contents the host lines start from: the region's arrays as the grid leaves them, everything else as launched. -/
abbrev start (c : Dev nD) : Valuation τ sig (Elt F) :=
  Pipeline.withArrays (cfgs 0).spec c (V0 m c) fun w => (dats m 0 c).arrAt w (cfgs 0).N

theorem start_3 (c : Dev nD) : start m c (Proc.devRef .tc main_v0_0) = G3 m c :=
  (Pipeline.withArrays_arr spec0 launch0.win.arr_inj c _ _ 3).trans (final3 m c)
theorem start_4 (c : Dev nD) : start m c (Proc.devRef .tc main_v0_1) = G4 m c :=
  (Pipeline.withArrays_arr spec0 launch0.win.arr_inj c _ _ 4).trans (final4 m c)
theorem start_5 (c : Dev nD) : start m c (Proc.devRef .tc main_v0_2) = G5 m c :=
  (Pipeline.withArrays_arr spec0 launch0.win.arr_inj c _ _ 5).trans (final5 m c)
theorem start_6 (c : Dev nD) : start m c (Proc.devRef .tc main_v0_3) = G6 m c :=
  (Pipeline.withArrays_arr spec0 launch0.win.arr_inj c _ _ 6).trans (final6 m c)
theorem start_7 (c : Dev nD) : start m c (Proc.devRef .tc main_v0_4) = G7 m c :=
  (Pipeline.withArrays_arr spec0 launch0.win.arr_inj c _ _ 7).trans (final7 m c)
theorem start_pm (c : Dev nD) : start m c (Proc.devRef .tc main_arg3) = m ((c : Thread nD τ).loc main_arg3) :=
  (Pipeline.withArrays_of_ne _ c (V0 m c) _ main_arg3 (by exact (by decide : ∀ w, Pipeline.arrRef spec0 w ≠ main_arg3))).trans
    (V_main_arg3 m c)

/-- The updated means the kernel ends with. -/
def meansResult (c : Dev nD) : FVec F S64x256 .f32 :=
  meansOf (G3 m c) (G4 m c) (m ((c : Thread nD τ).loc main_arg3))

/-- The loss the kernel ends with. -/
def lossResult (c : Dev nD) : FVec F S_ .f32 :=
  lossOf (meansResult m c) (sumCores3 (G5 m c)) (sumCores2 (G6 m c)) (sumCores1 (G7 m c))

theorem tail_v22 (c : Dev nD) :
    Pipeline.afterTail₀ cfgs (dats m) 0 (V0 m) [hostOps1, hostOps1_1, hostOps1_2] c main_v22 = meansResult m c := by
  unfold Pipeline.afterTail₀
  show after (List.flatten [hostOps1, hostOps1_1, hostOps1_2]) (start m c) (Proc.devRef .tc main_v22) = _
  rw [tail_means, start_3, start_4, start_pm]
  rfl

theorem tail_v32 (c : Dev nD) :
    Pipeline.afterTail₀ cfgs (dats m) 0 (V0 m) [hostOps1, hostOps1_1, hostOps1_2] c main_v32 = lossResult m c := by
  unfold Pipeline.afterTail₀
  show after (List.flatten [hostOps1, hostOps1_1, hostOps1_2]) (start m c) (Proc.devRef .tc main_v32) = _
  rw [tail_loss, start_3, start_4, start_5, start_6, start_7, start_pm]
  rfl

/-- The run, read. -/
theorem run : θ_run defs (onTc (τ := τ) (main (F := F))) ⟨m, fun _ => 0, ρ⟩ fun r => ∀ c : Dev nD,
      r.2.mem ((c.tc : Thread nD τ).loc main_v32) = lossResult m c
      ∧ r.2.mem ((c.tc : Thread nD τ).loc main_v22) = meansResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v32 (Pipeline.mem_restRefs_of main_v32 (by decide) (by decide))).trans (tail_v32 m c),
     ((h c).2 main_v22 (Pipeline.mem_restRefs_of main_v22 (by decide) (by decide))).trans (tail_v22 m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     (((h c).2 main_arg3 (Pipeline.mem_restRefs_of main_arg3 (by decide) (by decide))).trans (W_main_arg3 m (dats m) c))⟩)
    (run_main m ρ)

end Cert.KernelIdeal.KernelRun

end
-- ==== Proof.LibAxisSums.lean ====
import Idealize.ShloMosaic.PureOps.Ideal.Laws
import Idealize.ShloMosaic.Lib.Pipeline.Value
import Idealize.ShloMosaic.Lib.ValueIdx

/-! # Sums over one axis of a small-rank array, read at an index by coordinates

At exact values a vector sum-reduction over one axis, from the zero word, is at a result index the sum over that axis's
coordinate of the source at the index with the coordinate put back: the middle or the last axis of a rank-3 array, the
last or the first axis of a rank-2 array. With them: a sum over a rank-1 index set is the sum over its one coordinate,
and a shape cast that removes a unit axis in second place of a rank-4 array reads the operand with `0` there. -/

namespace Cert.LibAxisSums

open Idealize.ShloMosaic Idealize.ShloMosaic.ValueIdx
open scoped BigOperators

variable {α : Type}

/-- A rank-1 index set is its one coordinate's range … -/
def idxEquiv1 {n : ℕ} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- An `[a, 1, b, c]` array cast to `[a, b, c]`: the unit axis is dropped. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (i : Fin a) (j : Fin b) (k : Fin c) :
    shapeCast ⟨3, ![a, b, c]⟩ x h (ix3 i j k) = x (ix4 i (0 : Fin 1) j k) :=
  shapeCast_apply x h _ _ (by
    rw [Shape.rowMajor_val_four, Shape.rowMajor_val_three]
    show ((i.val * 1 + 0) * b + j.val) * c + k.val = (i.val * b + j.val) * c + k.val
    simp only [Nat.mul_one, Nat.add_zero])

/-- The sum over the middle axis of an `[a, b, c]` array, from the zero word, at `(i, k)`. -/
theorem sum_mid3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  show ∑ j : Fin b, src (h.lift (ix2 i k) j) = _
  refine Finset.sum_congr rfl fun j _ => congrArg src (funext fun ax => Fin.ext ?_)
  match ax with
  | ⟨0, _⟩ => rfl
  | ⟨1, _⟩ => rfl
  | ⟨2, _⟩ => rfl

/-- The sum over the last axis of an `[a, b, c]` array, from the zero word, at `(i, j)`. -/
theorem sum_last3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  show ∑ k : Fin c, src (h.lift (ix2 i j) k) = _
  refine Finset.sum_congr rfl fun k _ => congrArg src (funext fun ax => Fin.ext ?_)
  match ax with
  | ⟨0, _⟩ => rfl
  | ⟨1, _⟩ => rfl
  | ⟨2, _⟩ => rfl

/-- The sum over the last axis of an `[a, b]` array, from the zero word, at `i`. -/
theorem sum_last2_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = _
  refine Finset.sum_congr rfl fun j _ => congrArg src (funext fun ax => Fin.ext ?_)
  match ax with
  | ⟨0, _⟩ => rfl
  | ⟨1, _⟩ => rfl

/-- The sum over the first axis of an `[a, b]` array, from the zero word, at `j`. -/
theorem sum_first2_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (j : Fin b) :
    multiReduction .add [0] ⟨1, ![b]⟩ src 0x00000000#32 h hφ hacc (ix1 j) = ∑ i : Fin a, src (ix2 i j) := by
  refine (Ideal.multiReduction_add_single src 0x00000000#32 h hφ hacc (ix1 j)).trans ?_
  show ∑ i : Fin a, src (h.lift (ix1 j) i) = _
  refine Finset.sum_congr rfl fun i _ => congrArg src (funext fun ax => Fin.ext ?_)
  match ax with
  | ⟨0, _⟩ => rfl
  | ⟨1, _⟩ => rfl

end Cert.LibAxisSums
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.TileUpdates.lean ====
/-
  What one grid step adds to each accumulator, read at an index, at exact values.

  A grid step loads a tile of 8192 points x : [8192, 256] and the tiles a, s : [8192, 64] of the two weightings, and
  adds to each of five accumulators a sum over the tile's rows r:
    the label sums   [1, 64, 256]  at (0, k, d):  the sum of a(r, k) * x(r, d);
    the frequencies  [1, 1, 64]    at (0, 0, k):  the sum of a(r, k);
    the cross sums   [1, 64, 256]  at (0, k, d):  the sum of (a(r, k) * s(r, k)) * x(r, d);
    the weight sums  [1, 1, 64]    at (0, 0, k):  the sum of a(r, k) * s(r, k);
    the moment       [1, 1, 1]     at (0, 0, 0):  the sum of (the sum over d of x(r, d)^2) * (the sum over k of a(r, k) * s(r, k)).
  On the first step of a row of the grid the five accumulators are first reset to zero.

  Each payload is unfolded once and its index pushed through: the pointwise operations read at the index by
  definition; a shape cast that adds or drops unit axes reads the index with the same row-major position; a sum over
  one axis from the zero word is the sum over that coordinate; the contraction of the row axes of two tiles into the
  zero accumulator is the sum over the rows of the products; and the sum of a [1, 8192, 1] array over its last two
  axes is the sum over its middle coordinate.
-/
import proofs.«178432_j6717328851141_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«178432_j6717328851141_2_alg».proof.Proof.LibAxisSums
import proofs.«178432_j6717328851141_2_alg».proof.Proof.LibColumnCast

noncomputable section

namespace Cert.KernelIdeal.TileValue

open Idealize.ShloMosaic Idealize.ShloMosaic.ValueIdx Cert.KernelIdeal
open scoped BigOperators

/-! ## The contraction of the row axes of two tiles -/

/-- The tile contraction's dimension numbers: the row axis of each operand is contracted. -/
abbrev tileDot : DotDims S8192x64 S8192x256 S64x256 := dot_S8192x64_S8192x256_S64x256_0_0_1_1_n_n

/-- The left operand's column is the output's row. -/
theorem tileDot_lhs1 (i : S64x256.Idx) (q : tileDot.contr.Idx) : (tileDot.lhsIdx i q 1).val = (i 0).val := by
  unfold DotDims.lhsIdx
  rw [dif_neg (show ¬(1 : Fin S8192x64.rank) ∈ tileDot.lhsBatch by decide),
    dif_pos (show (1 : Fin S8192x64.rank) ∈ tileDot.lhsNonContracting by decide)]
  rfl

/-- The right operand's column is the output's column. -/
theorem tileDot_rhs1 (i : S64x256.Idx) (q : tileDot.contr.Idx) : (tileDot.rhsIdx i q 1).val = (i 1).val := by
  unfold DotDims.rhsIdx
  rw [dif_neg (show ¬(1 : Fin S8192x256.rank) ∈ tileDot.rhsBatch by decide),
    dif_pos (show (1 : Fin S8192x256.rank) ∈ tileDot.rhsNonContracting by decide)]
  rfl

/-- At output (k, d) and row r the left operand is read at (r, k). -/
theorem tileDot_lhsIdx (k : Fin 64) (d : Fin 256) (r : Fin 8192) :
    tileDot.lhsIdx (ix2 k d) ((contrEquiv1 tileDot 8192 rfl rfl).symm r) = ix2 r k := by
  have hr := contrEquiv1_symm_val tileDot 8192 rfl rfl r
  funext a
  refine Fin.ext ?_
  match a with
  | ⟨0, _⟩ => exact (tileDot.lhsIdx_val_of_single rfl _ _).trans hr
  | ⟨1, _⟩ => exact tileDot_lhs1 _ _

/-- At output (k, d) and row r the right operand is read at (r, d). -/
theorem tileDot_rhsIdx (k : Fin 64) (d : Fin 256) (r : Fin 8192) :
    tileDot.rhsIdx (ix2 k d) ((contrEquiv1 tileDot 8192 rfl rfl).symm r) = ix2 r d := by
  have hr := contrEquiv1_symm_val tileDot 8192 rfl rfl r
  funext a
  refine Fin.ext ?_
  match a with
  | ⟨0, _⟩ => exact (tileDot.rhsIdx_val_of_single rfl _ _).trans hr
  | ⟨1, _⟩ => exact tileDot_rhs1 _ _

/-- The contraction into the zero accumulator, at (k, d): the sum over the rows of the products. -/
theorem tileDot_apply (l : FVec Ideal S8192x64 .f32) (x : FVec Ideal S8192x256 .f32) (k : Fin 64) (d : Fin 256) :
    matmul (F := Ideal) tileDot none l x (constant (F := Ideal) S64x256 .f32 0x00000000#32) (ix2 k d)
      = ∑ r : Fin 8192, l (ix2 r k) * x (ix2 r d) := by
  refine (Ideal.matmul_constant_zero_apply tileDot none l x (ix2 k d)).trans ?_
  rw [← Equiv.sum_comp (contrEquiv1 tileDot 8192 rfl rfl).symm]
  refine Finset.sum_congr rfl fun r _ => ?_
  rw [tileDot_lhsIdx, tileDot_rhsIdx]

/-! ## The reset blocks -/

/-- The reset label sums are zero everywhere. -/
theorem zero4 (j : S1x64x256.Idx) : Gen.k0_pay4 (F := Ideal) j = 0 := Ideal.ofBits_zero_f32
/-- The reset frequencies are zero everywhere. -/
theorem zero5 (j : S1x1x64.Idx) : Gen.k0_pay5 (F := Ideal) j = 0 := Ideal.ofBits_zero_f32
/-- The reset cross sums are zero everywhere. -/
theorem zero6 (j : S1x64x256.Idx) : Gen.k0_pay6 (F := Ideal) j = 0 := Ideal.ofBits_zero_f32
/-- The reset weight sums are zero everywhere. -/
theorem zero7 (j : S1x1x64.Idx) : Gen.k0_pay7 (F := Ideal) j = 0 := Ideal.ofBits_zero_f32
/-- The reset moment is zero. -/
theorem zero8 (j : S1x1x1.Idx) : Gen.k0_pay8 (F := Ideal) j = 0 := Ideal.ofBits_zero_f32

/-! ## The four matrix- and row-shaped accumulators -/

/-- The label sums after a step: the previous contents plus the tile's sum of a(r, k) * x(r, d). -/
theorem labelsum_step (x : Vec Ideal S8192x256 .f32) (a : Vec Ideal S8192x64 .f32) (o : Vec Ideal S1x64x256 .f32)
    (k : Fin 64) (d : Fin 256) :
    Gen.k0_pay10 (F := Ideal) x a o (ix3 0 k d) = o (ix3 0 k d) + ∑ r : Fin 8192, a (ix2 r k) * x (ix2 r d) := by
  unfold Gen.k0_pay10
  refine (shapeCast_ab_1ab_apply _ _ 0 k d).trans ?_
  exact congrArg₂ (· + ·) (shapeCast_1ab_ab_apply o _ k d) (tileDot_apply a x k d)

/-- The frequencies after a step: the previous contents plus the tile's sum of a(r, k). -/
theorem freq_step (a : Vec Ideal S8192x64 .f32) (o : Vec Ideal S1x1x64 .f32) (k : Fin 64) :
    Gen.k0_pay11 (F := Ideal) a o (ix3 0 0 k) = o (ix3 0 0 k) + ∑ r : Fin 8192, a (ix2 r k) := by
  unfold Gen.k0_pay11
  refine (shapeCast_ab_1ab_apply _ _ 0 0 k).trans ?_
  refine congrArg₂ (· + ·) (shapeCast_1ab_ab_apply o _ 0 k) ?_
  refine (shapeCast_a_1a_apply _ _ 0 k).trans ?_
  exact LibAxisSums.sum_first2_apply a _ _ _ k

/-- The cross sums after a step: the previous contents plus the tile's sum of (a(r, k) * s(r, k)) * x(r, d). -/
theorem cross_step (x : Vec Ideal S8192x256 .f32) (a s : Vec Ideal S8192x64 .f32) (o : Vec Ideal S1x64x256 .f32)
    (k : Fin 64) (d : Fin 256) :
    Gen.k0_pay1 (F := Ideal) (Gen.k0_pay12 x a s o) (ix3 0 k d)
      = o (ix3 0 k d) + ∑ r : Fin 8192, (a (ix2 r k) * s (ix2 r k)) * x (ix2 r d) := by
  unfold Gen.k0_pay1
  refine (shapeCast_ab_1ab_apply _ _ 0 k d).trans ?_
  unfold Gen.k0_pay12
  refine congrArg₂ (· + ·) (shapeCast_1ab_ab_apply o _ k d) ?_
  refine (tileDot_apply (Gen.k0_pay9 a s) x k d).trans ?_
  exact Finset.sum_congr rfl fun r _ => rfl

/-- The weight sums after a step: the previous contents plus the tile's sum of a(r, k) * s(r, k). -/
theorem weight_step (a s : Vec Ideal S8192x64 .f32) (o : Vec Ideal S1x1x64 .f32) (k : Fin 64) :
    Gen.k0_pay2 (F := Ideal) (Gen.k0_pay9 a s) o (ix3 0 0 k)
      = o (ix3 0 0 k) + ∑ r : Fin 8192, a (ix2 r k) * s (ix2 r k) := by
  unfold Gen.k0_pay2
  refine (shapeCast_ab_1ab_apply _ _ 0 0 k).trans ?_
  refine congrArg₂ (· + ·) (shapeCast_1ab_ab_apply o _ 0 k) ?_
  refine (shapeCast_a_1a_apply _ _ 0 k).trans ?_
  refine (LibAxisSums.sum_first2_apply (Gen.k0_pay9 a s) _ _ _ k).trans ?_
  exact Finset.sum_congr rfl fun r _ => rfl

/-! ## The moment -/

/-- A one-entry vector cast to [1, 1, 1]: every entry is the vector's one entry. -/
theorem shapeCast_1_111_apply {α : Type} (v : (⟨1, ![1]⟩ : Shape).Idx → α)
    (h : (⟨1, ![1]⟩ : Shape).ShapeCasts ⟨3, ![1, 1, 1]⟩) (j : (⟨3, ![1, 1, 1]⟩ : Shape).Idx) :
    shapeCast ⟨3, ![1, 1, 1]⟩ v h j = v (ix1 0) :=
  shapeCast_apply v h _ _ (by
    have h0 : (j 0).val < 1 := (j 0).isLt
    have h1 : (j 1).val < 1 := (j 1).isLt
    have h2 : (j 2).val < 1 := (j 2).isLt
    rw [Shape.rowMajor_val_one, Shape.rowMajor_val_three]
    show 0 = ((j 0).val * 1 + (j 1).val) * 1 + (j 2).val
    omega)

/-- The index set of a [1, n, 1] array is its middle coordinate's range ... -/
def idxEquivMid (n : ℕ) : (⟨3, ![1, n, 1]⟩ : Shape).Idx ≃ Fin n where
  toFun i := i 1
  invFun r := ix3 0 r 0
  left_inv i := by
    have h0 : (i 0).val < 1 := (i 0).isLt
    have h2 : (i 2).val < 1 := (i 2).isLt
    funext a
    match a with
    | ⟨0, _⟩ => exact Fin.ext (by show 0 = (i 0).val; omega)
    | ⟨1, _⟩ => rfl
    | ⟨2, _⟩ => exact Fin.ext (by show 0 = (i 2).val; omega)
  right_inv _ := rfl

/-- ... so a sum over it is the sum over the middle coordinate. -/
theorem sum_idx_1n1 {M : Type*} [AddCommMonoid M] {n : ℕ} (f : (⟨3, ![1, n, 1]⟩ : Shape).Idx → M) :
    ∑ i, f i = ∑ r : Fin n, f (ix3 0 r 0) := by
  rw [← Equiv.sum_comp (idxEquivMid n).symm f]
  rfl

/-- The moment after a step, over any weighting tile w: the previous contents plus the tile's sum over r of
    (the sum over d of x(r, d) * x(r, d)) * (the sum over k of w(r, k)). -/
theorem moment_step_of (x : Vec Ideal S8192x256 .f32) (w : FVec Ideal S8192x64 .f32) (o : Vec Ideal S1x1x1 .f32) :
    Gen.k0_pay3 (F := Ideal) x w o (ix3 0 0 0)
      = o (ix3 0 0 0)
        + ∑ r : Fin 8192, (∑ d : Fin 256, x (ix2 r d) * x (ix2 r d)) * (∑ k : Fin 64, w (ix2 r k)) := by
  unfold Gen.k0_pay3
  refine (shapeCast_ab_1ab_apply _ _ 0 0 0).trans ?_
  refine congrArg₂ (· + ·) (shapeCast_1ab_ab_apply o _ 0 0) ?_
  refine (shapeCast_1_111_apply _ _ _).trans ?_
  refine (Ideal.multiReduction_add_total _ _ _ (fun b => by match b with | ⟨0, _⟩ => rfl) _ _ _).trans ?_
  refine (sum_idx_1n1 _).trans ?_
  refine Finset.sum_congr rfl fun r _ => ?_
  refine (shapeCast_ab_1ab_apply _ _ 0 r 0).trans ?_
  refine congrArg₂ (· * ·) ?_ ?_
  · refine (LibColumnCast.shapeCast_a_a1_apply _ _ r 0).trans ?_
    refine (LibAxisSums.sum_last2_apply (mulf x x) _ _ _ r).trans ?_
    exact Finset.sum_congr rfl fun d _ => rfl
  · refine (LibColumnCast.shapeCast_a_a1_apply _ _ r 0).trans ?_
    exact LibAxisSums.sum_last2_apply w _ _ _ r

/-- The moment after a step: the previous contents plus the tile's sum over r of
    (the sum over d of x(r, d) * x(r, d)) * (the sum over k of a(r, k) * s(r, k)). -/
theorem moment_step (x : Vec Ideal S8192x256 .f32) (a s : Vec Ideal S8192x64 .f32) (o : Vec Ideal S1x1x1 .f32) :
    Gen.k0_pay3 (F := Ideal) x (Gen.k0_pay9 a s) o (ix3 0 0 0)
      = o (ix3 0 0 0)
        + ∑ r : Fin 8192, (∑ d : Fin 256, x (ix2 r d) * x (ix2 r d)) * (∑ k : Fin 64, a (ix2 r k) * s (ix2 r k)) := by
  refine (moment_step_of x (Gen.k0_pay9 a s) o).trans ?_
  refine congrArg (o (ix3 0 0 0) + ·) (Finset.sum_congr rfl fun r _ => ?_)
  exact congrArg ((∑ d : Fin 256, x (ix2 r d) * x (ix2 r d)) * ·) (Finset.sum_congr rfl fun k _ => rfl)

end Cert.KernelIdeal.TileValue

end
-- ==== Proof.RunningSums.lean ====
/-
  An accumulation that restarts at every multiple of eight.

  A sequence `a 0, a 1, …, a (N - 1)` is built from terms `g n` by the rule: `a 0 = g 0`; at a step `n + 1` that is a multiple
  of eight the accumulation starts again, `a (n + 1) = g (n + 1)`; at every other step it continues,
  `a (n + 1) = a n + g (n + 1)`.  Then `a n` is the sum of the terms from the last restart up to `n`: the last restart at or
  before `n` is `n - n % 8`, and there are `n % 8 + 1` terms from there to `n`.

  * `restart_chain`: `a n = ∑ u < n % 8 + 1, g (n - n % 8 + u)`, by induction on `n`.
  * `last_step_sum`: at the last step `8 * p + 7` of the `p`-th group of eight the sum runs over the whole group.
-/
import Mathlib

open scoped BigOperators

namespace Cert.RunningSums

/-- The value at step `n` of an accumulation restarting at the multiples of eight is the sum of the `n % 8 + 1` terms from the
last restart `n - n % 8` up to `n`.

Induction on `n`.  At `0` the sum has the single term `g 0`.  At a restart step `(n + 1) % 8 = 0` the sum again has a single
term, `g (n + 1 - 0 + 0)`.  At any other step `(n + 1) % 8 = n % 8 + 1` and the last restart is unchanged,
`n + 1 - (n + 1) % 8 = n - n % 8`; so the sum for `n + 1` is the sum for `n` with one more term, at position
`n - n % 8 + (n % 8 + 1) = n + 1`. -/
theorem restart_chain {M : Type*} [AddCommMonoid M] (N : ℕ) (a : (n : ℕ) → n < N → M) (g : ℕ → M)
    (h0 : ∀ h : 0 < N, a 0 h = g 0)
    (hs : ∀ (n : ℕ) (h : n + 1 < N), a (n + 1) h = if (n + 1) % 8 = 0 then g (n + 1) else a n (Nat.lt_of_succ_lt h) + g (n + 1)) :
    ∀ (n : ℕ) (h : n < N), a n h = ∑ u ∈ Finset.range (n % 8 + 1), g (n - n % 8 + u) := by
  intro n
  induction n with
  | zero =>
    intro h
    rw [h0 h]
    simp
  | succ n ih =>
    intro h
    rw [hs n h]
    by_cases hm : (n + 1) % 8 = 0
    · rw [if_pos hm, hm]
      simp
    · rw [if_neg hm, ih (Nat.lt_of_succ_lt h)]
      have e1 : (n + 1) % 8 = n % 8 + 1 := by omega
      have e2 : n + 1 - (n + 1) % 8 = n - n % 8 := by omega
      have e3 : n - n % 8 + (n % 8 + 1) = n + 1 := by omega
      rw [e2, e1, Finset.sum_range_succ (fun u => g (n - n % 8 + u)) (n % 8 + 1), e3]

/-- At the last step `8 * p + 7` of the `p`-th group of eight the remainder is `7` and the last restart is `8 * p`, so the sum
runs over the eight positions `8 * p + s`, `s < 8`. -/
theorem last_step_sum {M : Type*} [AddCommMonoid M] (g : ℕ → M) (p : ℕ) :
    (∑ u ∈ Finset.range ((8 * p + 7) % 8 + 1), g ((8 * p + 7) - (8 * p + 7) % 8 + u)) = ∑ s : Fin 8, g (8 * p + s.val) := by
  have e1 : (8 * p + 7) % 8 = 7 := by omega
  have e2 : 8 * p + 7 - 7 = 8 * p := by omega
  rw [e1, e2]
  exact Finset.sum_range (fun u => g (8 * p + u))

end Cert.RunningSums
-- ==== Proof.AccumulatedSums.lean ====
/-
  The five accumulators after each grid step, read at an index, as sums of the tiles' contributions.

  Step t of the grid reads rows t * 8192 ... t * 8192 + 8191 of the three input arrays X : [131072, 256] and
  A, S : [131072, 64]: the block a window shows at step t, read at (r, j), is the array at (t * 8192 + r, j).
  A tile contributes to each accumulator a sum over its 8192 rows (the label sums, the frequencies, the cross sums,
  the weight sums, the moment), and the accumulators restart from zero at the steps that are multiples of eight. So
  after step n an accumulator holds, at an index, the sum of the contributions of the steps from the last restart
  n - n % 8 up to n.
-/
import proofs.«178432_j6717328851141_2_alg».proof.Proof.Accumulators
import proofs.«178432_j6717328851141_2_alg».proof.Proof.TileUpdates
import proofs.«178432_j6717328851141_2_alg».proof.Proof.RunningSums

set_option maxRecDepth 16384

noncomputable section

open Idealize.ShloMosaic Idealize.ShloMosaic.TcCoe Idealize.SL.Sem
open scoped BigOperators

namespace Cert.KernelIdeal.AccumValue

open Cert.KernelIdeal Cert.KernelIdeal.Gen Cert.KernelIdeal.Accum Cert.KernelIdeal.TileValue Idealize.ShloMosaic.ValueIdx

variable (m : (ℓ : Loc nD τ sig) → Buf (Elt Ideal) ℓ) (c : Dev nD)

/-! ## The blocks the three input windows show -/

/-- The row of the arrays a step number and a row of its tile name; total, by reduction modulo the arrays' height. -/
def rowAt (n : ℕ) : Fin 131072 := ⟨n % 131072, Nat.mod_lt _ (by norm_num)⟩

/-- Below the arrays' height the row is the number itself. -/
theorem rowAt_val_of_lt {n : ℕ} (h : n < 131072) : (rowAt n).val = n := Nat.mod_eq_of_lt h

/-- Step t's block of each input array starts at row block t and column block 0. -/
theorem index0 : ∀ t : Fin grid0.N, win0_0.index t (0 : Fin 2) = t.val ∧ win0_0.index t (1 : Fin 2) = 0 := by decide +kernel
theorem index1 : ∀ t : Fin grid0.N, win0_1.index t (0 : Fin 2) = t.val ∧ win0_1.index t (1 : Fin 2) = 0 := by decide +kernel
theorem index2 : ∀ t : Fin grid0.N, win0_2.index t (0 : Fin 2) = t.val ∧ win0_2.index t (1 : Fin 2) = 0 := by decide +kernel

/-- The points' block at step t, at (r, d), is X at (t * 8192 + r, d). -/
theorem iblk0_apply (t : Fin cfg0.N) (r : Fin 8192) (d : Fin 256) :
    (iblk m c 0 t : Vec Ideal S8192x256 .f32) (ix2 r d)
      = m (c.tc.loc main_arg0) (ix2 (rowAt (t.val * 8192 + r.val)) d) := by
  have hN : cfg0.N = 16 := N_0
  have ht : t.val < 16 := hN ▸ t.isLt
  have hi := index0 t
  unfold iblk
  rw [View.read_apply]
  show V m c main_arg0 _ = m (c.tc.loc main_arg0) _
  refine congrArg (m (c.tc.loc main_arg0)) (funext fun a => Fin.ext ?_)
  match a with
  | ⟨0, _⟩ =>
    show win0_0.index t 0 * 8192 + 1 * r.val = (t.val * 8192 + r.val) % 131072
    rw [hi.1, Nat.mod_eq_of_lt (by omega)]; omega
  | ⟨1, _⟩ =>
    show win0_0.index t 1 * 256 + 1 * d.val = d.val
    rw [hi.2]; omega

/-- The first weighting's block at step t, at (r, k), is A at (t * 8192 + r, k). -/
theorem iblk1_apply (t : Fin cfg0.N) (r : Fin 8192) (k : Fin 64) :
    (iblk m c 1 t : Vec Ideal S8192x64 .f32) (ix2 r k)
      = m (c.tc.loc main_arg1) (ix2 (rowAt (t.val * 8192 + r.val)) k) := by
  have hN : cfg0.N = 16 := N_0
  have ht : t.val < 16 := hN ▸ t.isLt
  have hi := index1 t
  unfold iblk
  rw [View.read_apply]
  show V m c main_arg1 _ = m (c.tc.loc main_arg1) _
  refine congrArg (m (c.tc.loc main_arg1)) (funext fun a => Fin.ext ?_)
  match a with
  | ⟨0, _⟩ =>
    show win0_1.index t 0 * 8192 + 1 * r.val = (t.val * 8192 + r.val) % 131072
    rw [hi.1, Nat.mod_eq_of_lt (by omega)]; omega
  | ⟨1, _⟩ =>
    show win0_1.index t 1 * 64 + 1 * k.val = k.val
    rw [hi.2]; omega

/-- The second weighting's block at step t, at (r, k), is S at (t * 8192 + r, k). -/
theorem iblk2_apply (t : Fin cfg0.N) (r : Fin 8192) (k : Fin 64) :
    (iblk m c 2 t : Vec Ideal S8192x64 .f32) (ix2 r k)
      = m (c.tc.loc main_arg2) (ix2 (rowAt (t.val * 8192 + r.val)) k) := by
  have hN : cfg0.N = 16 := N_0
  have ht : t.val < 16 := hN ▸ t.isLt
  have hi := index2 t
  unfold iblk
  rw [View.read_apply]
  show V m c main_arg2 _ = m (c.tc.loc main_arg2) _
  refine congrArg (m (c.tc.loc main_arg2)) (funext fun a => Fin.ext ?_)
  match a with
  | ⟨0, _⟩ =>
    show win0_2.index t 0 * 8192 + 1 * r.val = (t.val * 8192 + r.val) % 131072
    rw [hi.1, Nat.mod_eq_of_lt (by omega)]; omega
  | ⟨1, _⟩ =>
    show win0_2.index t 1 * 64 + 1 * k.val = k.val
    rw [hi.2]; omega

/-! ## The tiles' contributions -/

/-- The three input arrays as the launch memory holds them on core c, as functions into the extended reals:
    the points X, and the two weightings A and S. -/
abbrev inX : S131072x256.Idx → EReal := m (c.tc.loc main_arg0)
abbrev inA : S131072x64.Idx → EReal := m (c.tc.loc main_arg1)
abbrev inS : S131072x64.Idx → EReal := m (c.tc.loc main_arg2)

/-- Step t's contribution to the label sums at (k, d): the sum over the tile's rows of A * X. -/
def tileLabel (t : ℕ) (k : Fin 64) (d : Fin 256) : EReal :=
  ∑ r : Fin 8192, inA m c (ix2 (rowAt (t * 8192 + r.val)) k) * inX m c (ix2 (rowAt (t * 8192 + r.val)) d)

/-- Step t's contribution to the frequencies at k: the sum over the tile's rows of A. -/
def tileFreq (t : ℕ) (k : Fin 64) : EReal :=
  ∑ r : Fin 8192, inA m c (ix2 (rowAt (t * 8192 + r.val)) k)

/-- Step t's contribution to the cross sums at (k, d): the sum over the tile's rows of (A * S) * X. -/
def tileCross (t : ℕ) (k : Fin 64) (d : Fin 256) : EReal :=
  ∑ r : Fin 8192, (inA m c (ix2 (rowAt (t * 8192 + r.val)) k) * inS m c (ix2 (rowAt (t * 8192 + r.val)) k))
    * inX m c (ix2 (rowAt (t * 8192 + r.val)) d)

/-- Step t's contribution to the weight sums at k: the sum over the tile's rows of A * S. -/
def tileWeight (t : ℕ) (k : Fin 64) : EReal :=
  ∑ r : Fin 8192, inA m c (ix2 (rowAt (t * 8192 + r.val)) k) * inS m c (ix2 (rowAt (t * 8192 + r.val)) k)

/-- Step t's contribution to the moment: the sum over the tile's rows of (the squared norm of the point) times
    (the row's sum of A * S). -/
def tileMoment (t : ℕ) : EReal :=
  ∑ r : Fin 8192,
    (∑ d : Fin 256, inX m c (ix2 (rowAt (t * 8192 + r.val)) d) * inX m c (ix2 (rowAt (t * 8192 + r.val)) d))
      * (∑ k : Fin 64, inA m c (ix2 (rowAt (t * 8192 + r.val)) k) * inS m c (ix2 (rowAt (t * 8192 + r.val)) k))

/-! ## One step, read at an index -/

/-- A step adds its tile's contribution to the label sums. -/
theorem upd_label (t : Fin cfg0.N) (o : Blocks Ideal) (k : Fin 64) (d : Fin 256) :
    (upd (iblk m c 0 t) (iblk m c 1 t) (iblk m c 2 t) o).1 (ix3 0 k d)
      = o.1 (ix3 0 k d) + tileLabel m c t.val k d := by
  show Gen.k0_pay10 (F := Ideal) (iblk m c 0 t) (iblk m c 1 t) o.1 (ix3 0 k d) = _
  rw [labelsum_step (iblk m c 0 t) (iblk m c 1 t) o.1 k d]
  refine congrArg (o.1 (ix3 0 k d) + ·) (Finset.sum_congr rfl fun r _ => ?_)
  rw [iblk1_apply m c t r k, iblk0_apply m c t r d]

/-- A step adds its tile's contribution to the frequencies. -/
theorem upd_freq (t : Fin cfg0.N) (o : Blocks Ideal) (k : Fin 64) :
    (upd (iblk m c 0 t) (iblk m c 1 t) (iblk m c 2 t) o).2.1 (ix3 0 0 k)
      = o.2.1 (ix3 0 0 k) + tileFreq m c t.val k := by
  show Gen.k0_pay11 (F := Ideal) (iblk m c 1 t) o.2.1 (ix3 0 0 k) = _
  rw [freq_step (iblk m c 1 t) o.2.1 k]
  refine congrArg (o.2.1 (ix3 0 0 k) + ·) (Finset.sum_congr rfl fun r _ => ?_)
  rw [iblk1_apply m c t r k]

/-- A step adds its tile's contribution to the cross sums. -/
theorem upd_cross (t : Fin cfg0.N) (o : Blocks Ideal) (k : Fin 64) (d : Fin 256) :
    (upd (iblk m c 0 t) (iblk m c 1 t) (iblk m c 2 t) o).2.2.1 (ix3 0 k d)
      = o.2.2.1 (ix3 0 k d) + tileCross m c t.val k d := by
  show Gen.k0_pay1 (F := Ideal) (Gen.k0_pay12 (iblk m c 0 t) (iblk m c 1 t) (iblk m c 2 t) o.2.2.1) (ix3 0 k d) = _
  rw [cross_step (iblk m c 0 t) (iblk m c 1 t) (iblk m c 2 t) o.2.2.1 k d]
  refine congrArg (o.2.2.1 (ix3 0 k d) + ·) (Finset.sum_congr rfl fun r _ => ?_)
  rw [iblk1_apply m c t r k, iblk2_apply m c t r k, iblk0_apply m c t r d]

/-- A step adds its tile's contribution to the weight sums. -/
theorem upd_weight (t : Fin cfg0.N) (o : Blocks Ideal) (k : Fin 64) :
    (upd (iblk m c 0 t) (iblk m c 1 t) (iblk m c 2 t) o).2.2.2.1 (ix3 0 0 k)
      = o.2.2.2.1 (ix3 0 0 k) + tileWeight m c t.val k := by
  show Gen.k0_pay2 (F := Ideal) (Gen.k0_pay9 (iblk m c 1 t) (iblk m c 2 t)) o.2.2.2.1 (ix3 0 0 k) = _
  rw [weight_step (iblk m c 1 t) (iblk m c 2 t) o.2.2.2.1 k]
  refine congrArg (o.2.2.2.1 (ix3 0 0 k) + ·) (Finset.sum_congr rfl fun r _ => ?_)
  rw [iblk1_apply m c t r k, iblk2_apply m c t r k]

/-- A step adds its tile's contribution to the moment. -/
theorem upd_moment (t : Fin cfg0.N) (o : Blocks Ideal) :
    (upd (iblk m c 0 t) (iblk m c 1 t) (iblk m c 2 t) o).2.2.2.2 (ix3 0 0 0)
      = o.2.2.2.2 (ix3 0 0 0) + tileMoment m c t.val := by
  show Gen.k0_pay3 (F := Ideal) (iblk m c 0 t) (Gen.k0_pay9 (iblk m c 1 t) (iblk m c 2 t)) o.2.2.2.2 (ix3 0 0 0) = _
  rw [moment_step (iblk m c 0 t) (iblk m c 1 t) (iblk m c 2 t) o.2.2.2.2]
  refine congrArg (o.2.2.2.2 (ix3 0 0 0) + ·) (Finset.sum_congr rfl fun r _ => ?_)
  refine congrArg₂ (· * ·) (Finset.sum_congr rfl fun d _ => ?_) (Finset.sum_congr rfl fun k _ => ?_)
  · rw [iblk0_apply m c t r d]
  · rw [iblk1_apply m c t r k, iblk2_apply m c t r k]

/-! ## The accumulators after step n -/

/-- A reading of the five blocks that is zero on the zero blocks and that every step increases by g of the step's
    number is, after step n, the sum of g over the steps from the last restart up to n. -/
theorem acc_read (rd : Blocks Ideal → EReal) (g : ℕ → EReal) (hz : rd zeros = 0)
    (hu : ∀ (t : Fin cfg0.N) (o : Blocks Ideal),
      rd (upd (iblk m c 0 t) (iblk m c 1 t) (iblk m c 2 t) o) = rd o + g t.val)
    (n : ℕ) (h : n < cfg0.N) : rd (acc m c n h) = ∑ u ∈ Finset.range (n % 8 + 1), g (n - n % 8 + u) := by
  refine Cert.RunningSums.restart_chain cfg0.N (fun n h => rd (acc m c n h)) g ?_ ?_ n h
  · intro h
    show rd (upd (iblk m c 0 ⟨0, h⟩) (iblk m c 1 ⟨0, h⟩) (iblk m c 2 ⟨0, h⟩) zeros) = g 0
    rw [hu ⟨0, h⟩ zeros, hz, zero_add]
  · intro n h
    show rd (upd (iblk m c 0 ⟨n + 1, h⟩) (iblk m c 1 ⟨n + 1, h⟩) (iblk m c 2 ⟨n + 1, h⟩)
      (if (n + 1) % 8 = 0 then zeros else acc m c n (Nat.lt_of_succ_lt h))) = _
    rw [hu ⟨n + 1, h⟩]
    by_cases h8 : (n + 1) % 8 = 0
    · rw [if_pos h8, if_pos h8, hz, zero_add]
    · rw [if_neg h8, if_neg h8]

/-- The label sums after step n. -/
theorem acc_label (n : ℕ) (h : n < cfg0.N) (k : Fin 64) (d : Fin 256) :
    (acc m c n h).1 (ix3 0 k d) = ∑ u ∈ Finset.range (n % 8 + 1), tileLabel m c (n - n % 8 + u) k d :=
  acc_read m c (fun o => o.1 (ix3 0 k d)) (fun t => tileLabel m c t k d) (zero4 (ix3 0 k d))
    (fun t o => upd_label m c t o k d) n h

/-- The frequencies after step n. -/
theorem acc_freq (n : ℕ) (h : n < cfg0.N) (k : Fin 64) :
    (acc m c n h).2.1 (ix3 0 0 k) = ∑ u ∈ Finset.range (n % 8 + 1), tileFreq m c (n - n % 8 + u) k :=
  acc_read m c (fun o => o.2.1 (ix3 0 0 k)) (fun t => tileFreq m c t k) (zero5 (ix3 0 0 k))
    (fun t o => upd_freq m c t o k) n h

/-- The cross sums after step n. -/
theorem acc_cross (n : ℕ) (h : n < cfg0.N) (k : Fin 64) (d : Fin 256) :
    (acc m c n h).2.2.1 (ix3 0 k d) = ∑ u ∈ Finset.range (n % 8 + 1), tileCross m c (n - n % 8 + u) k d :=
  acc_read m c (fun o => o.2.2.1 (ix3 0 k d)) (fun t => tileCross m c t k d) (zero6 (ix3 0 k d))
    (fun t o => upd_cross m c t o k d) n h

/-- The weight sums after step n. -/
theorem acc_weight (n : ℕ) (h : n < cfg0.N) (k : Fin 64) :
    (acc m c n h).2.2.2.1 (ix3 0 0 k) = ∑ u ∈ Finset.range (n % 8 + 1), tileWeight m c (n - n % 8 + u) k :=
  acc_read m c (fun o => o.2.2.2.1 (ix3 0 0 k)) (fun t => tileWeight m c t k) (zero7 (ix3 0 0 k))
    (fun t o => upd_weight m c t o k) n h

/-- The moment after step n. -/
theorem acc_moment (n : ℕ) (h : n < cfg0.N) :
    (acc m c n h).2.2.2.2 (ix3 0 0 0) = ∑ u ∈ Finset.range (n % 8 + 1), tileMoment m c (n - n % 8 + u) :=
  acc_read m c (fun o => o.2.2.2.2 (ix3 0 0 0)) (fun t => tileMoment m c t) (zero8 (ix3 0 0 0))
    (fun t o => upd_moment m c t o) n h

end Cert.KernelIdeal.AccumValue

end
-- ==== Proof.Spec.lean ====
/-
  The quantities both programs compute, as functions of the argument arrays on the extended reals.

  The arrays: X, the points, 131072 rows of 256 coordinates; A and S, two weightings of the points over 64
  clusters; PM, the clusters' previous means, 64 rows of 256 coordinates.

  From them: per cluster k the weighted coordinate sums labelSum k d = Σ_n A n k · X n d and the total weight
  freq k = Σ_n A n k; the updated mean of cluster k, which averages the previous mean with the batch mean
  labelSum / max(freq, ε) when freq exceeds ε and keeps the previous mean otherwise (meanAt); and the loss, the
  sum over points n and clusters k of the squared distance |X n|² + |M k|² − 2 X n · M k between the point and the
  updated mean, weighted by A n k · S n k, divided by the number of points.  The loss sum is written twice:
  point by point (pointwiseLossSum), and expanded into the three sums that one pass over the points can
  accumulate before the means are known (expandedLossSum): Σ_n |X n|² · (Σ_k A n k S n k), Σ_k (Σ_n A n k S n k) · |M k|²
  and Σ_k Σ_d M k d · (Σ_n A n k S n k X n d).
-/
import Idealize.ShloMosaic.PureOps.Ideal
import Idealize.ShloMosaic.Lib.ValueIdx

noncomputable section

namespace Cert.Spec

open Idealize.ShloMosaic Idealize.ShloMosaic.ValueIdx

abbrev SX : Shape := ⟨2, ![131072, 256]⟩
abbrev SA : Shape := ⟨2, ![131072, 64]⟩
abbrev SM : Shape := ⟨2, ![64, 256]⟩

/-- The threshold ε below which a cluster counts as empty (the f32 nearest 1e-12). -/
abbrev epsW : EReal := Ideal.ofBits .f32 0x2B8CBCCC#32
/-- One half, the weight of both terms of the running average. -/
abbrev halfW : EReal := Ideal.ofBits .f32 0x3F000000#32
/-- Two, the factor of the cross term of a squared distance. -/
abbrev twoW : EReal := Ideal.ofBits .f32 0x40000000#32
/-- The number of points, 131072. -/
abbrev countW : EReal := Ideal.ofBits .f32 0x48000000#32

variable (A S : SA.Idx → EReal) (X : SX.Idx → EReal) (PM : SM.Idx → EReal)

/-- Σ_n A n k · X n d. -/
def labelSum (k : Fin 64) (d : Fin 256) : EReal := ∑ n : Fin 131072, A (ix2 n k) * X (ix2 n d)

/-- Σ_n A n k. -/
def freq (k : Fin 64) : EReal := ∑ n : Fin 131072, A (ix2 n k)

/-- Σ_n (A n k · S n k) · X n d. -/
def crossSum (k : Fin 64) (d : Fin 256) : EReal := ∑ n : Fin 131072, (A (ix2 n k) * S (ix2 n k)) * X (ix2 n d)

/-- Σ_n A n k · S n k. -/
def weightSum (k : Fin 64) : EReal := ∑ n : Fin 131072, A (ix2 n k) * S (ix2 n k)

/-- |X n|² = Σ_d X n d · X n d. -/
def sqNorm (n : Fin 131072) : EReal := ∑ d : Fin 256, X (ix2 n d) * X (ix2 n d)

/-- Σ_k A n k · S n k, the total weight of point n. -/
def pointWeight (n : Fin 131072) : EReal := ∑ k : Fin 64, A (ix2 n k) * S (ix2 n k)

/-- Σ_n |X n|² · (Σ_k A n k · S n k). -/
def momentSum : EReal := ∑ n : Fin 131072, sqNorm X n * pointWeight A S n

/-- One entry of the updated means from the entry's label sum, its cluster's total weight and the previous mean. -/
def meanAt (ls fr pm : EReal) : EReal :=
  Scalar.select (Ideal.cmp .ogt fr epsW) (pm * halfW + Ideal.div ls (max fr epsW) * halfW) pm

/-- The updated means. -/
def means (k : Fin 64) (d : Fin 256) : EReal := meanAt (labelSum A X k d) (freq A k) (PM (ix2 k d))

/-- |M k|² = Σ_d M k d · M k d. -/
def meanSq (M : Fin 64 → Fin 256 → EReal) (k : Fin 64) : EReal := ∑ d : Fin 256, M k d * M k d

/-- The loss sum point by point: Σ_n Σ_k ((|X n|² + |M k|²) − 2 · Σ_d X n d · M k d) · A n k · S n k. -/
def pointwiseLossSum (M : Fin 64 → Fin 256 → EReal) : EReal :=
  ∑ n : Fin 131072, ∑ k : Fin 64,
    (((sqNorm X n + meanSq M k) - twoW * (∑ d : Fin 256, X (ix2 n d) * M k d)) * A (ix2 n k)) * S (ix2 n k)

/-- The loss sum expanded: (Σ_n |X n|² · w n + Σ_k W k · |M k|²) − 2 · Σ_k Σ_d M k d · C k d. -/
def expandedLossSum (M : Fin 64 → Fin 256 → EReal) : EReal :=
  (momentSum A S X + ∑ k : Fin 64, weightSum A S k * meanSq M k)
    - twoW * (∑ k : Fin 64, ∑ d : Fin 256, M k d * crossSum A S X k d)

end Cert.Spec

end
-- ==== Proof.HostTailRead.lean ====
/-
  The host lines after the kernel, read entry by entry at exact values.

  The two cores' blocks of a partial-result array are added entry by entry (a sum over the core coordinate, the zero
  initial value contributing nothing; a reshape that drops unit axes does not move an entry). An entry of the updated
  means is the running average pm · ½ + (labelSum / max(freq, ε)) · ½ where the cluster's total weight freq exceeds ε
  and the previous mean pm elsewhere: the comparison and the divisor are per cluster, carried to every column of the
  cluster's row by two broadcasts, the constants ε and ½ by a scalar broadcast. The loss is
  ((T + Σ_k W k · Σ_d M k d · M k d) − 2 · Σ_k Σ_d M k d · C k d) / 131072: a sum over the last axis of a [64, 256]
  array, a sum over the one axis of a vector of 64, and a sum over every entry of a [64, 256] array, which is the
  double sum over rows and columns.
-/
import proofs.«178432_j6717328851141_2_alg».proof.Proof.HostTail
import proofs.«178432_j6717328851141_2_alg».proof.Proof.Spec
import proofs.«178432_j6717328851141_2_alg».proof.Proof.LibAxisSums
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.TailRead

open Idealize.ShloMosaic Idealize.ShloMosaic.ValueIdx Idealize.SL.Sem
open Cert.KernelIdeal Cert.KernelIdeal.Gen
open scoped BigOperators

/-! ## The single host operations read at an index -/

/-- The zero word's splat reads the extended real 0. -/
theorem zeroInit_apply (i : S_.Idx) : constant (F := Ideal) S_ .f32 0x00000000#32 i = 0 :=
  Ideal.ofBits_zero_f32

/-- A scalar constant broadcast to any shape reads the extended real its word encodes. -/
theorem bcastConst_apply {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_apply _ h _ j ix0 (fun a => a.elim0)

/-- A vector of 64 broadcast to a column reads the vector at the row. -/
theorem column_apply {α : Type} (y : S64.Idx → α) (k : Fin 64) (u : Fin 1) :
    broadcastInDim S64x1 ![0] bcast_S64_S64x1_0 y (ix2 k u) = y (ix1 k) :=
  broadcastInDim_apply _ bcast_S64_S64x1_0 y (ix2 k u) (ix1 k) (fun a => match a with
    | ⟨0, _⟩ => by show k.val = if (64 : Nat) = 1 then 0 else k.val; rw [if_neg (by decide)])

/-- A column broadcast along the rows reads the column at the row. -/
theorem rows_apply {α : Type} (y : S64x1.Idx → α) (k : Fin 64) (d : Fin 256) :
    broadcastInDim S64x256 ![0, 1] bcast_S64x1_S64x256_0_1 y (ix2 k d) = y (ix2 k (0 : Fin 1)) :=
  broadcastInDim_apply _ bcast_S64x1_S64x256_0_1 y (ix2 k d) (ix2 k (0 : Fin 1)) (fun a => match a with
    | ⟨0, _⟩ => by show k.val = if (64 : Nat) = 1 then 0 else k.val; rw [if_neg (by decide)]
    | ⟨1, _⟩ => by show 0 = if (1 : Nat) = 1 then 0 else d.val; rw [if_pos rfl])

/-- A [1,1] array cast to a scalar reads the one entry. -/
theorem cast11_apply {α : Type} (x : S1x1.Idx → α) (h : S1x1.ShapeCasts S_) :
    shapeCast S_ x h ix0 = x (ix2 (0 : Fin 1) (0 : Fin 1)) :=
  shapeCast_apply x h ix0 (ix2 (0 : Fin 1) (0 : Fin 1)) (by
    rw [Shape.rowMajor_val_two]
    show 0 * 1 + 0 = (Shape.rowMajorPi _ ix0).val
    rw [Shape.rowMajorPi_zero])

/-! ## The two cores' blocks added -/

theorem sumCores3_apply (O3 : FVec Ideal S2x64x256 .f32) (k : Fin 64) (d : Fin 256) :
    Tail.sumCores3 (F := Ideal) O3 (ix2 k d) = ∑ p : Fin 2, O3 (ix3 p k d) := by
  unfold Tail.sumCores3
  simp only [Host.reduceAdd, Ideal.hostReduceAdd_def]
  rw [Ideal.hostReduceAdd_single reducesTo_S2x64x256_S64x256_d0 (by decide), zeroInit_apply, zero_add]
  refine Finset.sum_congr rfl fun p _ => congrArg O3 (funext fun a => Fin.ext ?_)
  match a with
  | ⟨0, _⟩ => rfl
  | ⟨1, _⟩ => rfl
  | ⟨2, _⟩ => rfl

theorem sumCores2_apply (O4 : FVec Ideal S2x1x64 .f32) (k : Fin 64) :
    Tail.sumCores2 (F := Ideal) O4 (ix1 k) = ∑ p : Fin 2, O4 (ix3 p (0 : Fin 1) k) := by
  unfold Tail.sumCores2
  rw [shapeCast_1a_a_apply]
  simp only [Host.reduceAdd, Ideal.hostReduceAdd_def]
  rw [Ideal.hostReduceAdd_single reducesTo_S2x1x64_S1x64_d0 (by decide), zeroInit_apply, zero_add]
  refine Finset.sum_congr rfl fun p _ => congrArg O4 (funext fun a => Fin.ext ?_)
  match a with
  | ⟨0, _⟩ => rfl
  | ⟨1, _⟩ => rfl
  | ⟨2, _⟩ => rfl

theorem sumCores1_apply (O7 : FVec Ideal S2x1x1 .f32) :
    Tail.sumCores1 (F := Ideal) O7 ix0 = ∑ p : Fin 2, O7 (ix3 p (0 : Fin 1) (0 : Fin 1)) := by
  unfold Tail.sumCores1
  rw [cast11_apply]
  simp only [Host.reduceAdd, Ideal.hostReduceAdd_def]
  rw [Ideal.hostReduceAdd_single reducesTo_S2x1x1_S1x1_d0 (by decide), zeroInit_apply, zero_add]
  refine Finset.sum_congr rfl fun p _ => congrArg O7 (funext fun a => Fin.ext ?_)
  match a with
  | ⟨0, _⟩ => rfl
  | ⟨1, _⟩ => rfl
  | ⟨2, _⟩ => rfl

/-! ## The updated means at an index -/

theorem meansOf_apply' (ls : FVec Ideal S64x256 .f32) (fr : FVec Ideal S64 .f32) (pm : FVec Ideal S64x256 .f32)
    (k : Fin 64) (d : Fin 256) :
    Tail.pick (F := Ideal) (Tail.keepBit fr) (Tail.blend ls fr pm) pm (ix2 k d)
      = Cert.Spec.meanAt (ls (ix2 k d)) (fr (ix1 k)) (pm (ix2 k d)) := by
  -- the cluster's bit, read through its two broadcasts: the comparison of the total weight with ε
  have hbit : broadcastInDim S64x256 ![0, 1] bcast_S64x1_S64x256_0_1 (Tail.keepBit (F := Ideal) fr) (ix2 k d)
      = Ideal.cmp .ogt (fr (ix1 k)) Cert.Spec.epsW := by
    unfold Tail.keepBit
    rw [rows_apply, column_apply, cmpf_apply, bcastConst_apply]
    rfl
  -- the divisor, read through its two broadcasts: the larger of the total weight and ε
  have hden : broadcastInDim S64x256 ![0, 1] bcast_S64x1_S64x256_0_1 (broadcastInDim S64x1 ![0] bcast_S64_S64x1_0
        (maximumf fr (broadcastInDim S64 ![] bcast_S_S64 (constant (F := Ideal) S_ .f32 0x2B8CBCCC#32)))) (ix2 k d)
      = max (fr (ix1 k)) Cert.Spec.epsW := by
    rw [rows_apply, column_apply, maximumf_apply, bcastConst_apply]
  have hnew : Tail.blend (F := Ideal) ls fr pm (ix2 k d)
      = pm (ix2 k d) * Cert.Spec.halfW + Ideal.div (ls (ix2 k d)) (max (fr (ix1 k)) Cert.Spec.epsW) * Cert.Spec.halfW := by
    unfold Tail.blend
    rw [addf_apply, mulf_apply, mulf_apply, bcastConst_apply]
    show _ + Ideal.div (ls (ix2 k d)) _ * _ = _
    rw [hden]
  unfold Tail.pick
  rw [select_apply, hbit, hnew]
  rfl

/-! ## The loss -/

theorem lossOf_apply (lm C : FVec Ideal S64x256 .f32) (Wt : FVec Ideal S64 .f32) (T : FVec Ideal S_ .f32) :
    Tail.lossOf (F := Ideal) lm C Wt T ix0
      = Ideal.div ((T ix0 + ∑ k : Fin 64, Wt (ix1 k) * (∑ d : Fin 256, lm (ix2 k d) * lm (ix2 k d)))
          - Cert.Spec.twoW * (∑ k : Fin 64, ∑ d : Fin 256, lm (ix2 k d) * C (ix2 k d))) Cert.Spec.countW := by
  -- the squared length of each updated mean
  have hsq : ∀ k : Fin 64,
      Host.reduceAdd (mulf lm lm) (constant (F := Ideal) S_ .f32 0x00000000#32) reducesTo_S64x256_S64_d1 h_S_ (ix1 k)
        = ∑ d : Fin 256, lm (ix2 k d) * lm (ix2 k d) := by
    intro k
    simp only [Host.reduceAdd, Ideal.hostReduceAdd_def]
    rw [Ideal.hostReduceAdd_single reducesTo_S64x256_S64_d1 (by decide), zeroInit_apply, zero_add]
    refine Finset.sum_congr rfl fun (d : Fin 256) _ => ?_
    refine (congrArg (mulf lm lm) (funext fun a => Fin.ext ?_) : _ = mulf lm lm (ix2 k d))
    match a with
    | ⟨0, _⟩ => rfl
    | ⟨1, _⟩ => rfl
  -- the weighted sum of the squared lengths
  have hw : Host.reduceAdd
        (mulf Wt (Host.reduceAdd (mulf lm lm) (constant (F := Ideal) S_ .f32 0x00000000#32) reducesTo_S64x256_S64_d1 h_S_))
        (constant (F := Ideal) S_ .f32 0x00000000#32) reducesTo_S64_S_d0 h_S_ ix0
      = ∑ k : Fin 64, Wt (ix1 k) * (∑ d : Fin 256, lm (ix2 k d) * lm (ix2 k d)) := by
    generalize hy : Host.reduceAdd (mulf lm lm) (constant (F := Ideal) S_ .f32 0x00000000#32) reducesTo_S64x256_S64_d1 h_S_ = y at hsq
    simp only [Host.reduceAdd, Ideal.hostReduceAdd_def]
    rw [Ideal.hostReduceAdd_total reducesTo_S64_S_d0 (fun b => b.elim0), zeroInit_apply, zero_add,
      Cert.LibAxisSums.sum_idx1]
    refine Finset.sum_congr rfl fun k _ => ?_
    rw [mulf_apply, hsq k]
  -- the sum of the products of the updated means and the cross sums
  have hc : Host.reduceAdd (mulf lm C) (constant (F := Ideal) S_ .f32 0x00000000#32) reducesTo_S64x256_S_d0_1 h_S_ ix0
      = ∑ k : Fin 64, ∑ d : Fin 256, lm (ix2 k d) * C (ix2 k d) := by
    simp only [Host.reduceAdd, Ideal.hostReduceAdd_def]
    rw [Ideal.hostReduceAdd_total reducesTo_S64x256_S_d0_1 (fun b => b.elim0), zeroInit_apply, zero_add, sum_idx2]
    rfl
  unfold Tail.lossOf
  show Ideal.div ((T ix0 + _) - Cert.Spec.twoW * _) Cert.Spec.countW = _
  rw [hw, hc]

end Cert.KernelIdeal.TailRead

end
-- ==== Proof.LibSumFinMul.lean ====
/-
  A sum over the positions of a row-major flattening of an m×n grid is the double sum over rows and columns.

  Position k of `Fin (m * n)` is `q + n * p` for exactly one row p and column q (Mathlib's `finProdFinEquiv`), so in any
  commutative additive monoid the sum over the positions is the iterated sum over p and q of the term at that position.
-/
import Mathlib.Algebra.BigOperators.Fin
import Mathlib.Logic.Equiv.Fin.Basic

open scoped BigOperators

namespace SumFinMul

/-- `∑ k : Fin (m * n), f k = ∑ p, ∑ q, f (q + n * p)`. -/
theorem sum_fin_mul {M : Type*} [AddCommMonoid M] (m n : ℕ) (f : Fin (m * n) → M) :
    ∑ k, f k = ∑ p : Fin m, ∑ q : Fin n, f (finProdFinEquiv (p, q)) := by
  rw [← Equiv.sum_comp finProdFinEquiv f, Fintype.sum_prod_type]

/-- The position of row p, column q. -/
theorem finProdFinEquiv_val {m n : ℕ} (p : Fin m) (q : Fin n) : (finProdFinEquiv (p, q)).val = q.val + n * p.val := rfl

end SumFinMul
-- ==== Proof.SumBlocks.lean ====
/-
  Sums over a long index range split into consecutive blocks.

  A position `n` of `Fin (P * S * R)` is `(S * p + s) * R + r` for exactly one triple `p < P`, `s < S`, `r < R`
  (read the range as `P` blocks of `S` sub-blocks of `R` consecutive positions).  So in any commutative additive monoid a
  sum over the whole range is the iterated sum over `p`, `s` and `r` of the term at that position.  Nothing about the
  summands is used: the statement is a re-indexing, so it holds for extended reals as well as for reals.

  * `sum_three_level`: the general statement, obtained by splitting a product range into rows and columns twice.
  * `sum_131072`: the instance `131072 = 2 * 8 * 8192`.
  * `sum_range_succ_chain`: a sum over the first `n + 1` naturals is the sum over the first `n` plus the last term.
-/
import Mathlib
import proofs.«178432_j6717328851141_2_alg».proof.Proof.LibSumFinMul

open scoped BigOperators

namespace Cert.SumBlocks

/-- A sum over `Fin (P * S * R)` is the triple sum over blocks `p`, sub-blocks `s` and offsets `r` of the term at position
`(S * p + s) * R + r`.

First the range `(P * S) * R` is read as `P * S` rows of `R` columns: position `r + R * q` for row `q`, column `r`.  Then the
row index `q : Fin (P * S)` is itself read as `P` rows of `S` columns: `q = s + S * p`.  The two position formulas combine to
`r + R * (s + S * p) = (S * p + s) * R + r`. -/
theorem sum_three_level {M : Type*} [AddCommMonoid M] (P S R : ℕ) (f : ℕ → M) :
    (∑ n : Fin (P * S * R), f n.val) = ∑ p : Fin P, ∑ s : Fin S, ∑ r : Fin R, f ((S * p.val + s.val) * R + r.val) := by
  rw [SumFinMul.sum_fin_mul (P * S) R (fun k => f k.val)]
  rw [SumFinMul.sum_fin_mul P S (fun q => ∑ r : Fin R, f (finProdFinEquiv (q, r)).val)]
  refine Finset.sum_congr rfl fun p _ => Finset.sum_congr rfl fun s _ => Finset.sum_congr rfl fun r _ => ?_
  rw [SumFinMul.finProdFinEquiv_val, SumFinMul.finProdFinEquiv_val]
  congr 1
  ring

/-- The instance `131072 = 2 * 8 * 8192`: two blocks of eight sub-blocks of 8192 positions. -/
theorem sum_131072 {M : Type*} [AddCommMonoid M] (f : ℕ → M) :
    (∑ n : Fin 131072, f n.val) = ∑ p : Fin 2, ∑ s : Fin 8, ∑ r : Fin 8192, f ((8 * p.val + s.val) * 8192 + r.val) :=
  sum_three_level 2 8 8192 f

/-- A sum over the first `n + 1` naturals is the sum over the first `n` of them plus the term at `n`. -/
theorem sum_range_succ_chain {M : Type*} [AddCommMonoid M] (g : ℕ → M) (n : ℕ) :
    (∑ u ∈ Finset.range (n + 1), g u) = (∑ u ∈ Finset.range n, g u) + g n :=
  Finset.sum_range_succ g n

end Cert.SumBlocks
-- ==== Proof.KernelSpec.lean ====
/-
  The kernel's two results are the specification's.

  Core p's block of each partial-result array holds the sum, over that core's eight steps, of the steps' tile
  contributions; the host adds the two cores' blocks; and a sum over cores, steps and the 8192 rows of a tile is the
  sum over all 131072 points, row (8p + s) · 8192 + r being point number (8p + s) · 8192 + r.  So the five
  quantities the host tail starts from are the specification's label sums, total weights, cross sums, product
  weights and moment; the updated means and the expanded loss follow entry by entry.
-/
import proofs.«178432_j6717328851141_2_alg».proof.Proof.KernelRun
import proofs.«178432_j6717328851141_2_alg».proof.Proof.AccumulatedSums
import proofs.«178432_j6717328851141_2_alg».proof.Proof.HostTailRead
import proofs.«178432_j6717328851141_2_alg».proof.Proof.SumBlocks
import proofs.«178432_j6717328851141_2_alg».proof.Proof.RunningSums
import proofs.«178432_j6717328851141_2_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KernelSpec

open Cert.KernelIdeal Cert.KernelIdeal.Gen Cert.KernelIdeal.Accum Cert.KernelIdeal.Arrays Cert.KernelIdeal.Tail
open Cert.KernelIdeal.KernelRun Cert.KernelIdeal.AccumValue Cert.KernelIdeal.TailRead

variable (m : (ℓ : Loc nD τ sig) → Buf (Elt Ideal) ℓ) (c : Dev nD)

/-- Point number n, as a row index, is n. -/
theorem rowAt_val (n : Fin 131072) : rowAt n.val = n := Fin.ext (Nat.mod_eq_of_lt n.isLt)

/-- The previous means. -/
abbrev inPM : S64x256.Idx → EReal := m ((c.tc : Thread nD τ).loc main_arg3)

/-! ## Label -/

/-- Core p's block: the eight steps' contributions added. -/
theorem G3_apply (p : Fin 2) (k : Fin 64) (d : Fin 256) :
    G3 m c (ix3 p k d) = ∑ s : Fin 8, tileLabel m c (8 * p.val + s.val) k d := by
  have e : inBlk3 (ix3 p k d : S2x64x256.Idx) = ix3 (0 : Fin 1) k d := funext fun a => by
    match a with
    | ⟨0, _⟩ => rfl
    | ⟨1, _⟩ => rfl
    | ⟨2, _⟩ => rfl
  show (acc m c (lastStep ⟨p.val, p.isLt⟩).val (lastStep ⟨p.val, p.isLt⟩).isLt).1 (inBlk3 (ix3 p k d)) = _
  rw [e, acc_label]
  exact Cert.RunningSums.last_step_sum (fun t => tileLabel m c t k d) p.val

/-- All points' contributions, regrouped by core, step and row of the tile. -/
theorem specLabel_blocks (k : Fin 64) (d : Fin 256) :
    Cert.Spec.labelSum (inA m c) (inX m c) k d = ∑ p : Fin 2, ∑ s : Fin 8, tileLabel m c (8 * p.val + s.val) k d := by
  have h := Cert.SumBlocks.sum_131072 (fun n : ℕ => inA m c (ix2 (rowAt n) k) * inX m c (ix2 (rowAt n) d))
  unfold Cert.Spec.labelSum
  rw [show (∑ n : Fin 131072, inA m c (ix2 n k) * inX m c (ix2 n d)) = ∑ n : Fin 131072, (fun n : ℕ => inA m c (ix2 (rowAt n) k) * inX m c (ix2 (rowAt n) d)) n.val from
    Finset.sum_congr rfl fun n _ => by simp only [rowAt_val]]
  rw [h]
  rfl

/-! ## Freq -/

/-- Core p's block: the eight steps' contributions added. -/
theorem G4_apply (p : Fin 2) (k : Fin 64) :
    G4 m c (ix3 p (0 : Fin 1) k) = ∑ s : Fin 8, tileFreq m c (8 * p.val + s.val) k := by
  have e : inBlk4 (ix3 p (0 : Fin 1) k : S2x1x64.Idx) = ix3 (0 : Fin 1) (0 : Fin 1) k := funext fun a => by
    match a with
    | ⟨0, _⟩ => rfl
    | ⟨1, _⟩ => rfl
    | ⟨2, _⟩ => rfl
  show (acc m c (lastStep ⟨p.val, p.isLt⟩).val (lastStep ⟨p.val, p.isLt⟩).isLt).2.1 (inBlk4 (ix3 p (0 : Fin 1) k)) = _
  rw [e, acc_freq]
  exact Cert.RunningSums.last_step_sum (fun t => tileFreq m c t k) p.val

/-- All points' contributions, regrouped by core, step and row of the tile. -/
theorem specFreq_blocks (k : Fin 64) :
    Cert.Spec.freq (inA m c) k = ∑ p : Fin 2, ∑ s : Fin 8, tileFreq m c (8 * p.val + s.val) k := by
  have h := Cert.SumBlocks.sum_131072 (fun n : ℕ => inA m c (ix2 (rowAt n) k))
  unfold Cert.Spec.freq
  rw [show (∑ n : Fin 131072, inA m c (ix2 n k)) = ∑ n : Fin 131072, (fun n : ℕ => inA m c (ix2 (rowAt n) k)) n.val from
    Finset.sum_congr rfl fun n _ => by simp only [rowAt_val]]
  rw [h]
  rfl

/-! ## Cross -/

/-- Core p's block: the eight steps' contributions added. -/
theorem G5_apply (p : Fin 2) (k : Fin 64) (d : Fin 256) :
    G5 m c (ix3 p k d) = ∑ s : Fin 8, tileCross m c (8 * p.val + s.val) k d := by
  have e : inBlk5 (ix3 p k d : S2x64x256.Idx) = ix3 (0 : Fin 1) k d := funext fun a => by
    match a with
    | ⟨0, _⟩ => rfl
    | ⟨1, _⟩ => rfl
    | ⟨2, _⟩ => rfl
  show (acc m c (lastStep ⟨p.val, p.isLt⟩).val (lastStep ⟨p.val, p.isLt⟩).isLt).2.2.1 (inBlk5 (ix3 p k d)) = _
  rw [e, acc_cross]
  exact Cert.RunningSums.last_step_sum (fun t => tileCross m c t k d) p.val

/-- All points' contributions, regrouped by core, step and row of the tile. -/
theorem specCross_blocks (k : Fin 64) (d : Fin 256) :
    Cert.Spec.crossSum (inA m c) (inS m c) (inX m c) k d = ∑ p : Fin 2, ∑ s : Fin 8, tileCross m c (8 * p.val + s.val) k d := by
  have h := Cert.SumBlocks.sum_131072 (fun n : ℕ => (inA m c (ix2 (rowAt n) k) * inS m c (ix2 (rowAt n) k)) * inX m c (ix2 (rowAt n) d))
  unfold Cert.Spec.crossSum
  rw [show (∑ n : Fin 131072, (inA m c (ix2 n k) * inS m c (ix2 n k)) * inX m c (ix2 n d)) = ∑ n : Fin 131072, (fun n : ℕ => (inA m c (ix2 (rowAt n) k) * inS m c (ix2 (rowAt n) k)) * inX m c (ix2 (rowAt n) d)) n.val from
    Finset.sum_congr rfl fun n _ => by simp only [rowAt_val]]
  rw [h]
  rfl

/-! ## Weight -/

/-- Core p's block: the eight steps' contributions added. -/
theorem G6_apply (p : Fin 2) (k : Fin 64) :
    G6 m c (ix3 p (0 : Fin 1) k) = ∑ s : Fin 8, tileWeight m c (8 * p.val + s.val) k := by
  have e : inBlk6 (ix3 p (0 : Fin 1) k : S2x1x64.Idx) = ix3 (0 : Fin 1) (0 : Fin 1) k := funext fun a => by
    match a with
    | ⟨0, _⟩ => rfl
    | ⟨1, _⟩ => rfl
    | ⟨2, _⟩ => rfl
  show (acc m c (lastStep ⟨p.val, p.isLt⟩).val (lastStep ⟨p.val, p.isLt⟩).isLt).2.2.2.1 (inBlk6 (ix3 p (0 : Fin 1) k)) = _
  rw [e, acc_weight]
  exact Cert.RunningSums.last_step_sum (fun t => tileWeight m c t k) p.val

/-- All points' contributions, regrouped by core, step and row of the tile. -/
theorem specWeight_blocks (k : Fin 64) :
    Cert.Spec.weightSum (inA m c) (inS m c) k = ∑ p : Fin 2, ∑ s : Fin 8, tileWeight m c (8 * p.val + s.val) k := by
  have h := Cert.SumBlocks.sum_131072 (fun n : ℕ => inA m c (ix2 (rowAt n) k) * inS m c (ix2 (rowAt n) k))
  unfold Cert.Spec.weightSum
  rw [show (∑ n : Fin 131072, inA m c (ix2 n k) * inS m c (ix2 n k)) = ∑ n : Fin 131072, (fun n : ℕ => inA m c (ix2 (rowAt n) k) * inS m c (ix2 (rowAt n) k)) n.val from
    Finset.sum_congr rfl fun n _ => by simp only [rowAt_val]]
  rw [h]
  rfl

/-! ## Moment -/

/-- Core p's block: the eight steps' contributions added. -/
theorem G7_apply (p : Fin 2)  :
    G7 m c (ix3 p (0 : Fin 1) (0 : Fin 1)) = ∑ s : Fin 8, tileMoment m c (8 * p.val + s.val)  := by
  have e : inBlk7 (ix3 p (0 : Fin 1) (0 : Fin 1) : S2x1x1.Idx) = ix3 (0 : Fin 1) (0 : Fin 1) (0 : Fin 1) := funext fun a => by
    match a with
    | ⟨0, _⟩ => rfl
    | ⟨1, _⟩ => rfl
    | ⟨2, _⟩ => rfl
  show (acc m c (lastStep ⟨p.val, p.isLt⟩).val (lastStep ⟨p.val, p.isLt⟩).isLt).2.2.2.2 (inBlk7 (ix3 p (0 : Fin 1) (0 : Fin 1))) = _
  rw [e, acc_moment]
  exact Cert.RunningSums.last_step_sum (fun t => tileMoment m c t ) p.val

/-- All points' contributions, regrouped by core, step and row of the tile. -/
theorem specMoment_blocks  :
    Cert.Spec.momentSum (inA m c) (inS m c) (inX m c) = ∑ p : Fin 2, ∑ s : Fin 8, tileMoment m c (8 * p.val + s.val)  := by
  have h := Cert.SumBlocks.sum_131072 (fun n : ℕ => (∑ d : Fin 256, inX m c (ix2 (rowAt n) d) * inX m c (ix2 (rowAt n) d)) * (∑ k : Fin 64, inA m c (ix2 (rowAt n) k) * inS m c (ix2 (rowAt n) k)))
  unfold Cert.Spec.momentSum Cert.Spec.sqNorm Cert.Spec.pointWeight
  rw [show (∑ n : Fin 131072, (∑ d : Fin 256, inX m c (ix2 n d) * inX m c (ix2 n d)) * (∑ k : Fin 64, inA m c (ix2 n k) * inS m c (ix2 n k))) = ∑ n : Fin 131072, (fun n : ℕ => (∑ d : Fin 256, inX m c (ix2 (rowAt n) d) * inX m c (ix2 (rowAt n) d)) * (∑ k : Fin 64, inA m c (ix2 (rowAt n) k) * inS m c (ix2 (rowAt n) k))) n.val from
    Finset.sum_congr rfl fun n _ => by simp only [rowAt_val]]
  rw [h]
  rfl

/-! ## The five host sums -/

theorem labelSum_eq (k : Fin 64) (d : Fin 256) :
    sumCores3 (F := Ideal) (G3 m c) (ix2 k d) = Cert.Spec.labelSum (inA m c) (inX m c) k d := by
  rw [sumCores3_apply, specLabel_blocks]
  exact Finset.sum_congr rfl fun p _ => G3_apply m c p k d

theorem freq_eq (k : Fin 64) :
    sumCores2 (F := Ideal) (G4 m c) (ix1 k) = Cert.Spec.freq (inA m c) k := by
  rw [sumCores2_apply, specFreq_blocks]
  exact Finset.sum_congr rfl fun p _ => G4_apply m c p k

theorem crossSum_eq (k : Fin 64) (d : Fin 256) :
    sumCores3 (F := Ideal) (G5 m c) (ix2 k d) = Cert.Spec.crossSum (inA m c) (inS m c) (inX m c) k d := by
  rw [sumCores3_apply, specCross_blocks]
  exact Finset.sum_congr rfl fun p _ => G5_apply m c p k d

theorem weightSum_eq (k : Fin 64) :
    sumCores2 (F := Ideal) (G6 m c) (ix1 k) = Cert.Spec.weightSum (inA m c) (inS m c) k := by
  rw [sumCores2_apply, specWeight_blocks]
  exact Finset.sum_congr rfl fun p _ => G6_apply m c p k

theorem momentSum_eq :
    sumCores1 (F := Ideal) (G7 m c) ix0 = Cert.Spec.momentSum (inA m c) (inS m c) (inX m c) := by
  rw [sumCores1_apply, specMoment_blocks]
  exact Finset.sum_congr rfl fun p _ => G7_apply m c p

/-! ## The two results -/

/-- The kernel's updated means are the specification's, entry by entry. -/
theorem means_eq (k : Fin 64) (d : Fin 256) :
    meansResult m c (ix2 k d) = Cert.Spec.means (inA m c) (inX m c) (inPM m c) k d := by
  unfold meansResult meansOf Cert.Spec.means
  rw [meansOf_apply', labelSum_eq, freq_eq]

/-- The kernel's loss is the expanded loss sum of the specification's means over the number of points. -/
theorem loss_eq :
    lossResult m c ix0
      = Ideal.div (Cert.Spec.expandedLossSum (inA m c) (inS m c) (inX m c) (Cert.Spec.means (inA m c) (inX m c) (inPM m c))) Cert.Spec.countW := by
  unfold lossResult
  rw [lossOf_apply, momentSum_eq]
  unfold Cert.Spec.expandedLossSum Cert.Spec.meanSq
  simp only [means_eq, weightSum_eq, crossSum_eq]

end Cert.KernelIdeal.KernelSpec

end
-- ==== Proof.LibERealFinite.lean ====
/-
  Two general facts about extended reals read as ideal float values.

  * `coe_sum`: the coercion of the reals into the extended reals commutes with finite sums, so an identity between sums
    and products of real-valued entries can be proved over the reals and carried back.
  * `real_of_abs_lt`: an extended real whose absolute value `max x (-x)` compares strictly below the f32 pattern of `+∞`
    (`0x7F800000`) is a real number — what a "every entry is finite" precondition gives, entry by entry (`inf_eq`: that
    pattern is `⊤`).
-/
import Idealize.ShloMosaic.PureOps.Ideal

noncomputable section

namespace Cert.LibERealFinite

open Idealize.ShloMosaic

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The f32 pattern `0x7F800000` is `+∞`. -/
theorem inf_eq : Ideal.ofBits .f32 0x7F800000#32 = (⊤ : EReal) := by
  simp [Ideal.ofBits, Ideal.ieee]

/-- An extended real whose absolute value compares strictly below `+∞` is a real number. -/
theorem real_of_abs_lt (x : EReal) (h : Ideal.cmp .olt (max x (-x)) (Ideal.ofBits .f32 0x7F800000#32) = 1#1) :
    ∃ v : ℝ, x = (v : EReal) := by
  rw [inf_eq] at h
  induction x using EReal.rec with
  | bot => simp [Ideal.cmp] at h
  | coe v => exact ⟨v, rfl⟩
  | top => simp [Ideal.cmp] at h

end Cert.LibERealFinite

end
-- ==== Proof.LibBatchNorm.lean ====
/-
  Batch normalisation of a column of real numbers, on the extended reals, in its two usual forms, and the proof that
  they are one function.

  A column `z : Fin n → EReal` of real entries has sum `S = ∑ z`, sum of squares `Q = ∑ z²`, mean `m = S / n`.

  * The ONE-PASS form computes the variance as `Q / n − m²` (the mean of the squares minus the square of the mean) and
    folds the normalisation into one affine map `z ↦ z · scale + shift` with `scale = γ · rsqrt(var + ε)` and
    `shift = β − m · scale`.
  * The TWO-PASS form computes the variance as the mean of the squared deviations `(∑ (z − m)²) / n` and normalises as
    `γ · (z − m) · rsqrt(var + ε) + β`.

  Over the reals the two variances are equal (expand the square; `∑ z = n · m`), both are non-negative (the second is a
  sum of squares), so with `ε > 0` the reciprocal square root is taken at a positive real and is a real; the rest is the
  distributive law, which the extended reals have at finite values only — hence the hypothesis that every entry is real.

  * `IsReal`: an extended real that is a real number, with its closure under the field operations, finite sums, `max`,
    and the ideal operations `div` (by a nonzero real), `rsqrt` (of a positive real), `exp`, `log1p` (of a real above −1).
  * `real_sum_sq_dev`, `real_variance`: the variance identity over the reals.
  * `fold_eq`, `fold_eq'`, `fold_real`, `var_add_eps_pos`: the two forms agree, their value is real, and `var + ε` is a
    positive real.
-/
import Idealize.ShloMosaic.PureOps.Ideal
import proofs.«178432_j6717328851141_2_alg».proof.Proof.LibERealFinite

noncomputable section

open scoped BigOperators

namespace Cert.LibBatchNorm

open Idealize.ShloMosaic
open Cert.LibERealFinite

/-! ## Real extended reals -/

/-- An extended real that is a real number (neither infinity). -/
def IsReal (x : EReal) : Prop := ∃ r : ℝ, x = (r : EReal)

theorem isReal_coe (r : ℝ) : IsReal (r : EReal) := ⟨r, rfl⟩
theorem isReal_zero : IsReal 0 := ⟨0, EReal.coe_zero.symm⟩
theorem isReal_one : IsReal 1 := ⟨1, EReal.coe_one.symm⟩

theorem IsReal.ne_top {x : EReal} (h : IsReal x) : x ≠ ⊤ := by
  obtain ⟨a, rfl⟩ := h; exact EReal.coe_ne_top a
theorem IsReal.ne_bot {x : EReal} (h : IsReal x) : x ≠ ⊥ := by
  obtain ⟨a, rfl⟩ := h; exact EReal.coe_ne_bot a

/-- An extended real that is neither infinity is a real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
theorem IsReal.min {x y : EReal} (hx : IsReal x) (hy : IsReal y) : IsReal (min x y) := by
  rcases le_total x y with h | h
  · rw [min_eq_left h]; exact hx
  · rw [min_eq_right h]; exact hy

/-- A finite sum of reals is real. -/
theorem IsReal.sum {ι : Type*} (s : Finset ι) (f : ι → EReal) (h : ∀ i ∈ s, IsReal (f i)) : IsReal (∑ i ∈ s, f i) :=
  Finset.sum_induction f IsReal (fun _ _ => IsReal.add) isReal_zero h

/-- A sum over a finite type of reals is real. -/
theorem IsReal.sum_univ {ι : Type*} [Fintype ι] (f : ι → EReal) (h : ∀ i, IsReal (f i)) : IsReal (∑ i, f i) :=
  IsReal.sum _ f fun i _ => h i

/-- The ideal quotient of a real by a nonzero real is the real quotient. -/
theorem div_coe_coe (a : ℝ) {b : ℝ} (hb : b ≠ 0) : Ideal.div (a : EReal) (b : EReal) = ((a * (1 / b) : ℝ) : EReal) := by
  rw [Ideal.div_coe hb, ← EReal.coe_mul]

theorem IsReal.div {x c : EReal} (hx : IsReal x) (hc : IsReal c) (h0 : c ≠ 0) : IsReal (Ideal.div x c) := by
  obtain ⟨a, rfl⟩ := hx; obtain ⟨b, rfl⟩ := hc
  exact ⟨_, div_coe_coe a (EReal.coe_ne_zero.mp h0)⟩

/-- The ideal reciprocal square root of a positive real is the real one. -/
theorem rsqrt_coe_pos {a : ℝ} (h : 0 < a) : Ideal.rsqrt (a : EReal) = (((Real.sqrt a)⁻¹ : ℝ) : EReal) := by
  rw [Ideal.rsqrt_coe, if_neg (not_lt.mpr h.le), if_neg h.ne']

theorem IsReal.rsqrt {x : EReal} (hx : IsReal x) (h0 : 0 < x) : IsReal (Ideal.rsqrt x) := by
  obtain ⟨a, rfl⟩ := hx
  exact ⟨_, rsqrt_coe_pos (EReal.coe_pos.mp h0)⟩

/-- The reciprocal square root of a positive real is positive. -/
theorem rsqrt_pos {x : EReal} (hx : IsReal x) (h0 : 0 < x) : 0 < Ideal.rsqrt x := by
  obtain ⟨a, rfl⟩ := hx
  have ha : 0 < a := EReal.coe_pos.mp h0
  rw [rsqrt_coe_pos ha]
  exact EReal.coe_pos.mpr (inv_pos.mpr (Real.sqrt_pos.mpr ha))

theorem IsReal.exp {x : EReal} (hx : IsReal x) : IsReal (Ideal.exp x) := by
  obtain ⟨a, rfl⟩ := hx; exact ⟨Real.exp a, Ideal.exp_coe a⟩

/-- The exponential of a real is positive. -/
theorem exp_pos {x : EReal} (hx : IsReal x) : 0 < Ideal.exp x := by
  obtain ⟨a, rfl⟩ := hx
  rw [Ideal.exp_coe]; exact EReal.coe_pos.mpr (Real.exp_pos a)

/-- `log (1 + x)` at a real `x > −1` is the real logarithm. -/
theorem log1p_coe_of_lt {a : ℝ} (h : -1 < a) : Ideal.log1p (a : EReal) = ((Real.log (1 + a) : ℝ) : EReal) := by
  rw [Ideal.log1p, ← EReal.coe_one, ← EReal.coe_add, Ideal.log_coe, if_neg (by linarith)]

theorem IsReal.log1p {x : EReal} (hx : IsReal x) (h : -1 < x) : IsReal (Ideal.log1p x) := by
  obtain ⟨a, rfl⟩ := hx
  have ha : -1 < a := by
    have : ((-1 : ℝ) : EReal) < (a : EReal) := by simpa using h
    exact EReal.coe_lt_coe_iff.mp this
  exact ⟨_, log1p_coe_of_lt ha⟩

/-! ## The variance identity over the reals -/

/-- The sum of the squared deviations from any number `m`: expand the square. -/
theorem real_sum_sq_dev {n : ℕ} (z : Fin n → ℝ) (m : ℝ) :
    ∑ r, (z r - m) * (z r - m) = (∑ r, z r * z r) - 2 * m * (∑ r, z r) + n * (m * m) := by
  have h : ∀ r, (z r - m) * (z r - m) = z r * z r - 2 * m * z r + m * m := fun r => by ring
  simp only [h]
  rw [Finset.sum_add_distrib, Finset.sum_sub_distrib, ← Finset.mul_sum, Finset.sum_const, Finset.card_univ,
    Fintype.card_fin, nsmul_eq_mul]

/-- The mean of the squared deviations from the mean is the mean of the squares minus the square of the mean. -/
theorem real_variance {n : ℕ} (hn : n ≠ 0) (z : Fin n → ℝ) :
    (∑ r, (z r - (∑ s, z s) * (1 / (n : ℝ))) * (z r - (∑ s, z s) * (1 / (n : ℝ)))) * (1 / (n : ℝ))
      = (∑ r, z r * z r) * (1 / (n : ℝ)) - ((∑ s, z s) * (1 / (n : ℝ))) * ((∑ s, z s) * (1 / (n : ℝ))) := by
  have hn' : (n : ℝ) ≠ 0 := Nat.cast_ne_zero.mpr hn
  rw [real_sum_sq_dev]
  field_simp
  ring

/-- The mean of the squared deviations is non-negative. -/
theorem real_variance_nonneg {n : ℕ} (z : Fin n → ℝ) (m : ℝ) :
    0 ≤ (∑ r, (z r - m) * (z r - m)) * (1 / (n : ℝ)) :=
  mul_nonneg (Finset.sum_nonneg fun r _ => mul_self_nonneg _) (by positivity)

/-! ## The folded and the two-pass normalisation agree -/

section Fold

variable {n : ℕ}

/-- With real entries, count `n ≠ 0` and `ε > 0`: the one-pass variance plus `ε` is a positive real. -/
theorem var_add_eps_pos (hn : n ≠ 0) (c : EReal) (hc : c = ((n : ℝ) : EReal)) (e : ℝ) (he : 0 < e) (eps : EReal)
    (heps : eps = (e : EReal)) (z : Fin n → EReal) (hz : ∀ r, IsReal (z r)) :
    IsReal ((Ideal.div (∑ r, z r * z r) c - Ideal.div (∑ r, z r) c * Ideal.div (∑ r, z r) c) + eps)
      ∧ 0 < (Ideal.div (∑ r, z r * z r) c - Ideal.div (∑ r, z r) c * Ideal.div (∑ r, z r) c) + eps := by
  subst hc heps
  choose z' hz' using hz
  obtain rfl : z = fun r => (z' r : EReal) := funext hz'
  have hn' : (n : ℝ) ≠ 0 := Nat.cast_ne_zero.mpr hn
  have hpos : 0 < (∑ r, z' r * z' r) * (1 / (n : ℝ)) - ((∑ s, z' s) * (1 / (n : ℝ))) * ((∑ s, z' s) * (1 / (n : ℝ))) + e := by
    rw [← real_variance hn z']
    have := real_variance_nonneg z' ((∑ s, z' s) * (1 / (n : ℝ)))
    linarith
  simp only [← EReal.coe_mul, ← coe_sum, div_coe_coe _ hn', ← EReal.coe_sub, ← EReal.coe_add]
  exact ⟨isReal_coe _, EReal.coe_pos.mpr hpos⟩

/-- **The folded batch normalisation is the two-pass one.** For a column `z` of `n ≠ 0` real entries, real `γ`, `β`
    and `ε > 0`: the affine map `z i · scale + shift` built from the sum `S` and the sum of squares `Q`
    (`mean = S / n`, `var = Q / n − mean²`, `scale = γ · rsqrt (var + ε)`, `shift = β − mean · scale`) equals
    `γ · (z i − mean) · rsqrt ((∑ (z − mean)²) / n + ε) + β`. -/
theorem fold_eq (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - Ideal.div (∑ r, z r) c))
          * Ideal.rsqrt (Ideal.div (∑ r, (z r - Ideal.div (∑ s, z s) c) * (z r - Ideal.div (∑ s, z s) c)) c + eps)) + β := by
  subst hc heps
  choose z' hz' using hz
  obtain rfl : z = fun r => (z' r : EReal) := funext hz'
  obtain ⟨g', rfl⟩ := hg
  obtain ⟨β', rfl⟩ := hβ
  have hn' : (n : ℝ) ≠ 0 := Nat.cast_ne_zero.mpr hn
  have hvar := real_variance hn z'
  have hpos : 0 < (∑ r, z' r * z' r) * (1 / (n : ℝ)) - ((∑ s, z' s) * (1 / (n : ℝ))) * ((∑ s, z' s) * (1 / (n : ℝ))) + e := by
    rw [← hvar]
    have := real_variance_nonneg z' ((∑ s, z' s) * (1 / (n : ℝ)))
    linarith
  simp only [← EReal.coe_mul, ← coe_sum, div_coe_coe _ hn', ← EReal.coe_sub, ← EReal.coe_add]
  rw [hvar, rsqrt_coe_pos hpos]
  simp only [← EReal.coe_mul, ← EReal.coe_sub, ← EReal.coe_add]
  exact congrArg _ (by ring)

/-- The mean of a real column over a nonzero count is real. -/
theorem mean_real (hn : n ≠ 0) (c : EReal) (hc : c = ((n : ℝ) : EReal)) (z : Fin n → EReal) (hz : ∀ r, IsReal (z r)) :
    IsReal (Ideal.div (∑ r, z r) c) := by
  have hc0 : c ≠ 0 := by rw [hc]; exact EReal.coe_ne_zero.mpr (Nat.cast_ne_zero.mpr hn)
  exact IsReal.div (IsReal.sum_univ _ hz) (hc ▸ isReal_coe _) hc0

/-- The folded scale `γ · rsqrt (var + ε)` is real. -/
theorem scale_real (hn : n ≠ 0) (c : EReal) (hc : c = ((n : ℝ) : EReal)) (e : ℝ) (he : 0 < e) (eps : EReal)
    (heps : eps = (e : EReal)) (z : Fin n → EReal) (hz : ∀ r, IsReal (z r)) (g : EReal) (hg : IsReal g) :
    IsReal (g * Ideal.rsqrt ((Ideal.div (∑ r, z r * z r) c - Ideal.div (∑ r, z r) c * Ideal.div (∑ r, z r) c) + eps)) := by
  obtain ⟨hV, hVpos⟩ := var_add_eps_pos hn c hc e he eps heps z hz
  exact hg.mul (IsReal.rsqrt hV hVpos)

/-- The folded shift `β − mean · scale` is real. -/
theorem shift_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) :
    IsReal (β - Ideal.div (∑ r, z r) c
      * (g * Ideal.rsqrt ((Ideal.div (∑ r, z r * z r) c - Ideal.div (∑ r, z r) c * Ideal.div (∑ r, z r) c) + eps))) :=
  hβ.sub ((mean_real hn c hc z hz).mul (scale_real hn c hc e he eps heps z hz g hg))

/-- The normalised entry (in its folded form, hence in both) is real. -/
theorem fold_real (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) :
    IsReal (z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))) :=
  ((hz i).mul (scale_real hn c hc e he eps heps z hz g hg)).add (shift_real hn c hc e he eps heps z hz g β hg hβ)

/-- The same identity with the two-pass side's mean `m` and variance `v` given by name. -/
theorem fold_eq' (hn : n ≠ 0) (c : EReal) (hc : c = ((n : ℝ) : EReal)) (e : ℝ) (he : 0 < e) (eps : EReal)
    (heps : eps = (e : EReal)) (z : Fin n → EReal) (hz : ∀ r, IsReal (z r)) (g β : EReal) (hg : IsReal g)
    (hβ : IsReal β) (i : Fin n) (m v : EReal) (hm : m = Ideal.div (∑ r, z r) c)
    (hv : v = Ideal.div (∑ r, (z r - m) * (z r - m)) c) :
    z i * (g * Ideal.rsqrt ((Ideal.div (∑ r, z r * z r) c - Ideal.div (∑ r, z r) c * Ideal.div (∑ r, z r) c) + eps))
        + (β - Ideal.div (∑ r, z r) c
            * (g * Ideal.rsqrt ((Ideal.div (∑ r, z r * z r) c - Ideal.div (∑ r, z r) c * Ideal.div (∑ r, z r) c) + eps)))
      = ((g * (z i - m)) * Ideal.rsqrt (v + eps)) + β := by
  subst hv; subst hm
  exact fold_eq hn c hc e he eps heps z hz g β hg hβ i

end Fold

end Cert.LibBatchNorm

end
-- ==== Proof.RefValue.lean ====
/-
  The reference program read as the specification.

  The updated means: the reference's stage for them, read at (k, d), is the running average of the previous mean with
  the batch mean labelSum k d / max(freq k, ε) when freq k exceeds ε, and the previous mean otherwise.

  The loss: the reference forms, for every point n and cluster k, the squared distance
  |X n|² + |M k|² − 2 · Σ_d X n d · M k d to the updated mean M k, weights it by A n k · S n k, sums over the clusters
  and then over the points (each host sum starts from the zero word, which denotes 0), and divides by the number of
  points.  That is the point-by-point loss sum of the specification divided by the count.

  Finiteness: the threshold word ε denotes a positive real and the half word a real, so an updated mean formed from
  real sums and a real previous mean is real (the divisor max(freq, ε) is a real not below ε, hence nonzero); the
  word for two denotes a real.
-/
import proofs.«178432_j6717328851141_2_alg».proof.Proof.Gen.ReferenceIdeal.Read
import proofs.«178432_j6717328851141_2_alg».proof.Proof.Spec
import proofs.«178432_j6717328851141_2_alg».proof.Proof.LibBatchNorm
import proofs.«178432_j6717328851141_2_alg».proof.Proof.LibAxisSums
import Idealize.ShloMosaic.Lib.ValueIdx
import Idealize.ShloMosaic.PureOps.Ideal.Laws

noncomputable section

namespace Cert.RefValue

open Idealize.ShloMosaic Idealize.ShloMosaic.ValueIdx Cert.ReferenceIdeal Cert.ReferenceIdeal.Gen Cert.ReferenceIdeal.Read
open Cert.LibBatchNorm

/-! ## The constant words -/

/-- The threshold word denotes 9223372 · 2⁻⁶³ (about 1e-12). -/
theorem epsW_eq : Cert.Spec.epsW = (((9223372 : ℝ) * (2 : ℝ) ^ (-63 : ℤ) : ℝ) : EReal) := by
  simp [Ideal.ofBits, Ideal.ieee, -EReal.coe_mul]

/-- The half word denotes 1/2. -/
theorem halfW_eq : Cert.Spec.halfW = (((1 / 2 : ℝ) : ℝ) : EReal) := by
  simp [Ideal.ofBits, Ideal.ieee, -EReal.coe_mul]; norm_num

/-- The word for two denotes 2. -/
theorem twoW_eq : Cert.Spec.twoW = ((2 : ℝ) : EReal) := by
  simp [Ideal.ofBits, Ideal.ieee, -EReal.coe_mul]; norm_num

/-- The count word denotes 131072, the number of points. -/
theorem countW_eq : Cert.Spec.countW = ((131072 : ℝ) : EReal) := by
  simp [Ideal.ofBits, Ideal.ieee, -EReal.coe_mul]; norm_num

/-- The threshold is a positive real. -/
theorem epsW_pos : ∃ e : ℝ, 0 < e ∧ Cert.Spec.epsW = (e : EReal) :=
  ⟨_, by positivity, epsW_eq⟩

theorem halfW_real : IsReal Cert.Spec.halfW := ⟨_, halfW_eq⟩

theorem twoW_real : ∃ r : ℝ, Cert.Spec.twoW = (r : EReal) := ⟨_, twoW_eq⟩

/-- An updated mean formed from a real label sum, a real total weight and a real previous mean is real: the divisor
    max(fr, ε) is a real not below ε > 0. -/
theorem meanAt_real {ls fr pm : EReal} (hls : IsReal ls) (hfr : IsReal fr) (hpm : IsReal pm) :
    IsReal (Cert.Spec.meanAt ls fr pm) := by
  obtain ⟨e, he, hE⟩ := epsW_pos
  have hEr : IsReal Cert.Spec.epsW := ⟨e, hE⟩
  have h0 : (0 : EReal) < Cert.Spec.epsW := hE ▸ EReal.coe_pos.mpr he
  have hmax : IsReal (max fr Cert.Spec.epsW) := hfr.max hEr
  have hne : max fr Cert.Spec.epsW ≠ 0 := (lt_of_lt_of_le h0 (le_max_right _ _)).ne'
  unfold Cert.Spec.meanAt Scalar.select
  split
  · exact (hpm.mul halfW_real).add ((hls.div hmax hne).mul halfW_real)
  · exact hpm

/-! ## The reference's stages -/

variable (x0 : (⟨S131072x256, .f32⟩ : BufTy).Contents (Elt Ideal)) (x1 x2 : (⟨S131072x64, .f32⟩ : BufTy).Contents (Elt Ideal))
  (x3 : (⟨S64x256, .f32⟩ : BufTy).Contents (Elt Ideal))

/-- The reference's updated means at (k, d). -/
theorem ref_means (k : Fin 64) (d : Fin 256) :
    val_main_v15 (F := Ideal) x0 x1 x3 (ix2 k d) = Cert.Spec.means x1 x0 x3 k d := by
  have eA : ∀ n : Fin 131072, idx_main_v1 (idx_main_v9 (idx_main_call0_v0 (ix2 k d))) n = ix2 n k := fun n =>
    funext fun a => Fin.ext (by match a with | ⟨0, _⟩ => rfl | ⟨1, _⟩ => rfl)
  have eB : ∀ n : Fin 131072, idx_main_v1 (idx_main_v6 (idx_main_v7 (ix2 k d))) n = ix2 n k := fun n =>
    funext fun a => Fin.ext (by match a with | ⟨0, _⟩ => rfl | ⟨1, _⟩ => rfl)
  have eL : ∀ n : Fin 131072, lidx_main_v0 (ix2 k d) n = ix2 n k := fun n =>
    funext fun a => Fin.ext (by match a with | ⟨0, _⟩ => rfl | ⟨1, _⟩ => rfl)
  have eR : ∀ n : Fin 131072, ridx_main_v0 (ix2 k d) n = ix2 n d := fun n =>
    funext fun a => Fin.ext (by match a with | ⟨0, _⟩ => rfl | ⟨1, _⟩ => rfl)
  rw [val_main_v15_apply, val_main_call0_v0_apply, val_main_v9_apply, val_main_v3_apply, val_main_v1_apply,
    val_main_v2_apply, val_main_cst_0_apply, val_main_cst_apply, val_main_v14_apply, val_main_v11_apply,
    val_main_v10_apply, val_main_cst_2_apply, val_main_v13_apply, val_main_v8_apply, val_main_v0_apply,
    val_main_v7_apply, val_main_v6_apply, val_main_v5_apply, val_main_v1_apply, val_main_v4_apply,
    val_main_cst_1_apply, val_main_cst_apply, val_main_v12_apply, val_main_cst_3_apply]
  simp only [eA, eB, eL, eR, Ideal.ofBits_def, Ideal.cmpf_def, Ideal.addf_def, Ideal.mulf_def, Ideal.hostDivf_def,
    Ideal.maximumf_def, Ideal.ofBits_zero_f32, zero_add]
  rfl

/-- The same at any index of the means' array. -/
theorem ref_means_at (i : S64x256.Idx) :
    val_main_v15 (F := Ideal) x0 x1 x3 i = Cert.Spec.means x1 x0 x3 (i 0) (i 1) :=
  (congrArg (val_main_v15 (F := Ideal) x0 x1 x3) (eq_ix2 i)).trans (ref_means x0 x1 x3 (i 0) (i 1))

/-- The reference's squared distance between point n and the updated mean of cluster k. -/
theorem ref_dist (n : Fin 131072) (k : Fin 64) :
    val_main_v29 (F := Ideal) x0 x1 x3 (ix2 n k)
      = (Cert.Spec.sqNorm x0 n + Cert.Spec.meanSq (Cert.Spec.means x1 x0 x3) k)
          - Cert.Spec.twoW * (∑ d : Fin 256, x0 (ix2 n d) * Cert.Spec.means x1 x0 x3 k d) := by
  have eX : ∀ d : Fin 256, idx_main_v17 (idx_main_v22 (idx_main_v24 (ix2 n k))) d = ix2 n d := fun d =>
    funext fun a => Fin.ext (by match a with | ⟨0, _⟩ => rfl | ⟨1, _⟩ => rfl)
  have eL : ∀ d : Fin 256, lidx_main_v21 (ix2 n k) d = ix2 n d := fun d =>
    funext fun a => Fin.ext (by match a with | ⟨0, _⟩ => rfl | ⟨1, _⟩ => rfl)
  simp only [val_main_v29_apply, val_main_v26_apply, val_main_v24_apply, val_main_v22_apply, val_main_v17_apply,
    val_main_cst_4_apply, val_main_v16_apply, val_main_v25_apply, val_main_v23_apply, val_main_v19_apply,
    val_main_cst_5_apply, val_main_v18_apply, val_main_v28_apply, val_main_v27_apply, val_main_cst_6_apply,
    val_main_v21_apply, val_main_v20_apply, ref_means_at, eX, eL, Ideal.ofBits_def, Ideal.subf_def, Ideal.addf_def,
    Ideal.mulf_def, Ideal.ofBits_zero_f32, zero_add]
  rfl

/-- The reference's weighted distances of point n, summed over the clusters. -/
theorem ref_row (n : Fin 131072) :
    val_main_v32 (F := Ideal) x0 x1 x2 x3 (ix1 n)
      = ∑ k : Fin 64,
          (((Cert.Spec.sqNorm x0 n + Cert.Spec.meanSq (Cert.Spec.means x1 x0 x3) k)
              - Cert.Spec.twoW * (∑ d : Fin 256, x0 (ix2 n d) * Cert.Spec.means x1 x0 x3 k d)) * x1 (ix2 n k))
            * x2 (ix2 n k) := by
  have eI : ∀ k : Fin 64, idx_main_v32 (ix1 n) k = ix2 n k := fun k =>
    funext fun a => Fin.ext (by match a with | ⟨0, _⟩ => rfl | ⟨1, _⟩ => rfl)
  simp only [val_main_v32_apply, val_main_cst_7_apply, val_main_v31_apply, val_main_v30_apply, eI, ref_dist,
    Ideal.ofBits_def, Ideal.mulf_def, Ideal.ofBits_zero_f32, zero_add]

/-- The reference's loss: the point-by-point loss sum at the updated means, divided by the number of points. -/
theorem ref_loss :
    val_main_v34 (F := Ideal) x0 x1 x2 x3 ix0
      = Ideal.div (Cert.Spec.pointwiseLossSum x1 x2 x0 (Cert.Spec.means x1 x0 x3)) Cert.Spec.countW := by
  rw [val_main_v34_apply, val_main_v33_apply, val_main_cst_8_apply, val_main_cst_9_apply,
    Cert.LibAxisSums.sum_idx1]
  simp only [ref_row, Ideal.ofBits_def, Ideal.hostDivf_def, Ideal.ofBits_zero_f32, zero_add]
  rfl

end Cert.RefValue

end
-- ==== Proof.LossAlgebra.lean ====
/-
  A clustering loss written two ways, and the proof that the two are one number.

  Points `x n d`, two weightings `a n k` and `s n k` of point `n` against cluster `k`, cluster means `lm k d`.  Write
  `w n k = a n k * s n k`, `X n = ∑ d, x n d * x n d` (the squared norm of point `n`) and `L k = ∑ d, lm k d * lm k d` (the
  squared norm of mean `k`).

  * The REFERENCE form sums, over every pair `(n, k)`, the expanded squared distance `X n + L k - two * ⟨x n, lm k⟩` times the
    two weights.
  * The KERNEL form never forms the pairwise distances: it adds `∑ n, X n * (∑ k, w n k)` and `∑ k, (∑ n, w n k) * L k` and
    subtracts `two` times `∑ k, ∑ d, lm k d * (∑ n, w n k * x n d)` (the means against the weighted sums of the points).

  Over the reals the two are equal: distribute the weights over the three terms of the squared distance, split the double
  sum into three, and in each one pull the factor that does not depend on the inner index out of the inner sum (after
  exchanging the order of summation where needed).  On the extended reals multiplication distributes over addition at finite
  values only, hence the hypothesis that every entry is a real number: then every sub-expression is the image of the same
  real expression, and the identity is the image of the real one.

  * `bilinear_loss_real`: the identity over the reals.
  * `bilinear_loss`: the identity over the extended reals, for real entries.
-/
import Mathlib
import proofs.«178432_j6717328851141_2_alg».proof.Proof.LibERealFinite

open scoped BigOperators

namespace Cert.LossAlgebra

/-- The two forms of the loss agree over the reals. -/
theorem bilinear_loss_real {N K D : Type*} [Fintype N] [Fintype K] [Fintype D]
    (x : N → D → ℝ) (a s : N → K → ℝ) (lm : K → D → ℝ) (two : ℝ) :
    (∑ n, ∑ k, ((((∑ d, x n d * x n d) + (∑ d, lm k d * lm k d)) - two * (∑ d, x n d * lm k d)) * a n k) * s n k)
    = ((∑ n, (∑ d, x n d * x n d) * (∑ k, a n k * s n k)) + (∑ k, (∑ n, a n k * s n k) * (∑ d, lm k d * lm k d)))
      - two * (∑ k, ∑ d, lm k d * (∑ n, (a n k * s n k) * x n d)) := by
  -- one pair (n, k): distribute the weight w = a * s over the three terms of the squared distance
  have h1 : ∀ n k,
      ((((∑ d, x n d * x n d) + (∑ d, lm k d * lm k d)) - two * (∑ d, x n d * lm k d)) * a n k) * s n k
      = ((∑ d, x n d * x n d) * (a n k * s n k) + (a n k * s n k) * (∑ d, lm k d * lm k d))
        - two * (∑ d, lm k d * ((a n k * s n k) * x n d)) := by
    intro n k
    have h2 : (∑ d, lm k d * ((a n k * s n k) * x n d)) = (∑ d, x n d * lm k d) * (a n k * s n k) := by
      rw [Finset.sum_mul]
      exact Finset.sum_congr rfl fun d _ => by ring
    rw [h2]
    ring
  -- split the double sum into its three parts
  have h3 : (∑ n, ∑ k, ((((∑ d, x n d * x n d) + (∑ d, lm k d * lm k d)) - two * (∑ d, x n d * lm k d)) * a n k) * s n k)
      = ((∑ n, ∑ k, (∑ d, x n d * x n d) * (a n k * s n k)) + (∑ n, ∑ k, (a n k * s n k) * (∑ d, lm k d * lm k d)))
        - (∑ n, ∑ k, two * (∑ d, lm k d * ((a n k * s n k) * x n d))) := by
    rw [← Finset.sum_add_distrib, ← Finset.sum_sub_distrib]
    refine Finset.sum_congr rfl fun n _ => ?_
    rw [← Finset.sum_add_distrib, ← Finset.sum_sub_distrib]
    exact Finset.sum_congr rfl fun k _ => h1 n k
  rw [h3]
  -- first part: the squared norm of point n does not depend on k
  have p1 : (∑ n, ∑ k, (∑ d, x n d * x n d) * (a n k * s n k)) = ∑ n, (∑ d, x n d * x n d) * (∑ k, a n k * s n k) :=
    Finset.sum_congr rfl fun n _ => (Finset.mul_sum _ _ _).symm
  -- second part: exchange the sums; the squared norm of mean k does not depend on n
  have p2 : (∑ n, ∑ k, (a n k * s n k) * (∑ d, lm k d * lm k d)) = ∑ k, (∑ n, a n k * s n k) * (∑ d, lm k d * lm k d) := by
    rw [Finset.sum_comm]
    exact Finset.sum_congr rfl fun k _ => (Finset.sum_mul _ _ _).symm
  -- third part: exchange the sums twice so that n is innermost; neither two nor lm k d depends on n
  have p3 : (∑ n, ∑ k, two * (∑ d, lm k d * ((a n k * s n k) * x n d)))
      = two * (∑ k, ∑ d, lm k d * (∑ n, (a n k * s n k) * x n d)) := by
    rw [Finset.sum_comm, Finset.mul_sum]
    refine Finset.sum_congr rfl fun k _ => ?_
    rw [← Finset.mul_sum, Finset.sum_comm]
    congr 1
    exact Finset.sum_congr rfl fun d _ => (Finset.mul_sum _ _ _).symm
  rw [p1, p2, p3]

/-- The two forms of the loss agree over the extended reals when every entry is a real number.

Name the real numbers behind the entries.  Every sub-expression of either side is then the image of the same expression
over the reals, because the inclusion of the reals commutes with products, sums, differences and finite sums; so the
identity is the image of `bilinear_loss_real`. -/
theorem bilinear_loss {N K D : Type*} [Fintype N] [Fintype K] [Fintype D]
    (x : N → D → EReal) (a s : N → K → EReal) (lm : K → D → EReal) (two : EReal)
    (hx : ∀ n d, ∃ r : ℝ, x n d = (r : EReal)) (ha : ∀ n k, ∃ r : ℝ, a n k = (r : EReal))
    (hs : ∀ n k, ∃ r : ℝ, s n k = (r : EReal)) (hlm : ∀ k d, ∃ r : ℝ, lm k d = (r : EReal))
    (htwo : ∃ r : ℝ, two = (r : EReal)) :
    (∑ n, ∑ k, ((((∑ d, x n d * x n d) + (∑ d, lm k d * lm k d)) - two * (∑ d, x n d * lm k d)) * a n k) * s n k)
    = ((∑ n, (∑ d, x n d * x n d) * (∑ k, a n k * s n k)) + (∑ k, (∑ n, a n k * s n k) * (∑ d, lm k d * lm k d)))
      - two * (∑ k, ∑ d, lm k d * (∑ n, (a n k * s n k) * x n d)) := by
  choose x' hx' using hx
  choose a' ha' using ha
  choose s' hs' using hs
  choose lm' hlm' using hlm
  obtain ⟨two', rfl⟩ := htwo
  -- the real identity, carried into the extended reals, with the inclusion pushed down to the entries
  have key := congrArg (fun r : ℝ => (r : EReal)) (bilinear_loss_real x' a' s' lm' two')
  simp only [EReal.coe_sub, EReal.coe_add, EReal.coe_mul, Cert.LibERealFinite.coe_sum] at key
  -- the entries of the statement are those inclusions
  simp only [hx', ha', hs', hlm']
  exact key

end Cert.LossAlgebra
-- ==== Proof.LossBridge.lean ====
/-
  The two ways of summing the loss agree when every input entry is a real number.

  The loss sum written point by point multiplies each squared distance |X n|² + |M k|² − 2 X n · M k by the weights
  A n k · S n k and sums; expanded, it is Σ_n |X n|² w n + Σ_k W k |M k|² − 2 Σ_k Σ_d M k d · C k d.  The two are
  equal because multiplication distributes over the sums — on real numbers; on the extended reals it need not.  So
  the entries must be real: the inputs are by the precondition, and the updated means are because a label sum and a
  total weight are finite sums of products of reals, and the running average divides by max(freq, ε) ≥ ε > 0.
-/
import proofs.«178432_j6717328851141_2_alg».proof.Proof.Spec
import proofs.«178432_j6717328851141_2_alg».proof.Proof.LossAlgebra
import proofs.«178432_j6717328851141_2_alg».proof.Proof.LibBatchNorm
import proofs.«178432_j6717328851141_2_alg».proof.Proof.RefValue

noncomputable section

namespace Cert.Bridge

open Idealize.ShloMosaic Idealize.ShloMosaic.ValueIdx Cert.LibBatchNorm

variable (A S : Cert.Spec.SA.Idx → EReal) (X : Cert.Spec.SX.Idx → EReal) (PM : Cert.Spec.SM.Idx → EReal)

/-- Every updated mean is a real number when the inputs' entries are. -/
theorem means_real (hA : ∀ i, ∃ r : ℝ, A i = (r : EReal)) (hX : ∀ i, ∃ r : ℝ, X i = (r : EReal))
    (hPM : ∀ i, ∃ r : ℝ, PM i = (r : EReal)) (k : Fin 64) (d : Fin 256) :
    ∃ r : ℝ, Cert.Spec.means A X PM k d = (r : EReal) :=
  Cert.RefValue.meanAt_real
    (IsReal.sum_univ _ fun n => IsReal.mul (hA (ix2 n k)) (hX (ix2 n d)))
    (IsReal.sum_univ _ fun n => hA (ix2 n k))
    (hPM (ix2 k d))

/-- The loss sum point by point is the expanded loss sum. -/
theorem loss_sums_eq (hA : ∀ i, ∃ r : ℝ, A i = (r : EReal)) (hS : ∀ i, ∃ r : ℝ, S i = (r : EReal))
    (hX : ∀ i, ∃ r : ℝ, X i = (r : EReal)) (hPM : ∀ i, ∃ r : ℝ, PM i = (r : EReal)) :
    Cert.Spec.pointwiseLossSum A S X (Cert.Spec.means A X PM) = Cert.Spec.expandedLossSum A S X (Cert.Spec.means A X PM) := by
  unfold Cert.Spec.pointwiseLossSum Cert.Spec.expandedLossSum Cert.Spec.momentSum Cert.Spec.sqNorm Cert.Spec.pointWeight
    Cert.Spec.meanSq Cert.Spec.weightSum Cert.Spec.crossSum
  exact Cert.LossAlgebra.bilinear_loss (fun n d => X (ix2 n d)) (fun n k => A (ix2 n k)) (fun n k => S (ix2 n k))
    (Cert.Spec.means A X PM) Cert.Spec.twoW (fun n d => hX (ix2 n d)) (fun n k => hA (ix2 n k)) (fun n k => hS (ix2 n k))
    (means_real A X PM hA hX hPM) Cert.RefValue.twoW_real

end Cert.Bridge

end
-- ==== Proof.FiniteInputs.lean ====
/-
  Every entry of the four argument arrays is a real number.

  The precondition is the conjunction, over the four arrays, of "every entry x has |x| < +∞", each stated as an
  and-reduction over all axes of the entrywise comparison of |x| = max x (-x) against the f32 pattern of +∞, the
  whole being the one-bit word 1. A conjunction of one-bit words is 1 exactly when both are; an and-reduction over all
  axes that is 1 had a 1 at every entry; and an extended real x with max x (-x) < ⊤ is neither ⊤ nor ⊥, hence the
  image of a real. `real_of_all` is the statement for one array, `real_of_fn` for the four arrays of the
  precondition, and `real_of_pre` reads it at the four argument locations of a memory.
-/
import proofs.«178432_j6717328851141_2_alg».proof.Defs
import proofs.«178432_j6717328851141_2_alg».proof.Proof.Gen.Pre_finite_inputs
import proofs.«178432_j6717328851141_2_alg».proof.Proof.LibERealFinite
import Idealize.ShloMosaic.Lib.ReduceAll
import Idealize.ShloMosaic.Lib.ValueIdx

noncomputable section

namespace Cert.FiniteInputs

open Idealize.ShloMosaic Idealize.ShloMosaic.ValueIdx Idealize.SL.Sem

/-- The rank-0 shape has exactly one index: the empty tuple. -/
instance instSubsingletonScalarIdx : Subsingleton Cert.Pre_finite_inputs.S_.Idx :=
  ⟨fun a b => funext fun d => d.elim0⟩

/-- One array: if the and-reduction over all axes of the entrywise test `|x| < +∞` is 1, every entry of `x` is a
    real. The reduction being 1 gives the test at each entry `i`; there the left side is `max (x i) (-(x i))` and the
    right side, a scalar constant broadcast to the array's shape, is the f32 pattern of `+∞` — both by unfolding. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32)
    (e : Host.reduce IntOp.andi
          (cmpf .olt (Host.absf x) (broadcastInDim s ![] hb (constant Cert.Pre_finite_inputs.S_ .f32 0x7F800000#32)))
          (constantI Cert.Pre_finite_inputs.S_ 1 1#1) hr hu ix0 = 1#1)
    (i : s.Idx) : ∃ r : ℝ, x i = (r : EReal) := by
  have h1 := Host.reduce_andi_all _ _ hr hu ix0 e i
  exact Cert.LibERealFinite.real_of_abs_lt (x i) h1

/-- The four arrays of the precondition: its value at the one index of the scalar result is a three-fold conjunction
    of one-bit words, split into its four reductions, each read by `real_of_all`. -/
theorem real_of_fn [Cert.Pre_finite_inputs.Facts]
    (x0 : FVec Ideal Cert.Pre_finite_inputs.S131072x256 .f32) (x1 : FVec Ideal Cert.Pre_finite_inputs.S131072x64 .f32)
    (x2 : FVec Ideal Cert.Pre_finite_inputs.S131072x64 .f32) (x3 : FVec Ideal Cert.Pre_finite_inputs.S64x256 .f32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧
    (∀ i, ∃ r : ℝ, x2 i = (r : EReal)) ∧ (∀ i, ∃ r : ℝ, x3 i = (r : EReal)) := by
  have h0 := congrFun h ix0
  dsimp only [Cert.Pre_finite_inputs.fn, Cert.Pre_finite_inputs.fn_part1] at h0
  -- ((a0 ∧ a1) ∧ a2) ∧ a3, as one-bit words at the scalar index
  obtain ⟨h012, h3⟩ := IntOp.andi_eq_one.1 h0
  obtain ⟨h01, h2⟩ := IntOp.andi_eq_one.1 h012
  obtain ⟨h0', h1⟩ := IntOp.andi_eq_one.1 h01
  exact ⟨fun i => real_of_all _ _ _ x0 h0' i, fun i => real_of_all _ _ _ x1 h1 i,
    fun i => real_of_all _ _ _ x2 h2 i, fun i => real_of_all _ _ _ x3 h3 i⟩

/-- The idealized kernel's memory: under its precondition, on every device, every entry of each of the four argument
    arrays is a real. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal)) ∧
    (∀ i, ∃ r : ℝ, m ((c.tc : Thread Cert.KernelIdeal.nD Cert.KernelIdeal.τ).loc Cert.KernelIdeal.main_arg1) i = (r : EReal)) ∧
    (∀ i, ∃ r : ℝ, m ((c.tc : Thread Cert.KernelIdeal.nD Cert.KernelIdeal.τ).loc Cert.KernelIdeal.main_arg2) i = (r : EReal)) ∧
    (∀ i, ∃ r : ℝ, m ((c.tc : Thread Cert.KernelIdeal.nD Cert.KernelIdeal.τ).loc Cert.KernelIdeal.main_arg3) i = (r : EReal)) :=
  real_of_fn _ _ _ _ (h c)

end Cert.FiniteInputs

end
-- ==== Proof.lean ====
/-
  A clustering loss and the updated cluster means, computed by a kernel that streams the points once and by a
  reference that forms every point-to-mean distance, are equal as extended reals when every input entry is finite.

  The inputs: X, 131072 points of 256 coordinates; A and S, two weightings of the points over 64 clusters; PM, the
  clusters' previous means.  Both programs update cluster k's mean from the label sums Σ_n A n k · X n d and the
  total weight Σ_n A n k (a running average with the batch mean when the weight exceeds ε, the previous mean
  otherwise), and both return the mean over the points of Σ_k |X n − M k|² · A n k · S n k.

  The reference computes exactly that.  The kernel splits the points between two cores, eight tiles of 8192 points
  each, and accumulates per core five sums — the label sums, the total weights, C k d = Σ_n A n k S n k X n d,
  W k = Σ_n A n k S n k and T = Σ_n |X n|² Σ_k A n k S n k — which the host adds over the two cores; the means are
  then formed as in the reference and the loss as (T + Σ_k W k |M k|² − 2 Σ_{k,d} M k d C k d) / 131072.

  Two facts join the two sides.  Regrouping a sum over 131072 points by core, tile and row changes nothing in a
  commutative monoid, so the kernel's five sums are the reference's and the means agree entry by entry, with no
  finiteness needed.  Expanding |X n − M k|² and exchanging the sums needs multiplication to distribute over
  addition, which it does on real numbers: the inputs are real by the precondition, and so are the means (the
  running average divides by max(weight, ε) ≥ ε > 0).

  The frames are the generated ones; the ideal pass rewrote nothing, so the kernel's idealization claim is trivial.
-/
import proofs.«178432_j6717328851141_2_alg».proof.Defs
import proofs.«178432_j6717328851141_2_alg».proof.Proof.Gen.Kernel
import proofs.«178432_j6717328851141_2_alg».proof.Proof.Gen.Kernel.Skeleton
import proofs.«178432_j6717328851141_2_alg».proof.Proof.Gen.Kernel.Launch
import proofs.«178432_j6717328851141_2_alg».proof.Proof.Gen.Kernel.Points
import proofs.«178432_j6717328851141_2_alg».proof.Proof.Gen.Kernel.Frame
import proofs.«178432_j6717328851141_2_alg».proof.Proof.Gen.KernelIdeal
import proofs.«178432_j6717328851141_2_alg».proof.Proof.Gen.KernelIdeal.Skeleton
import proofs.«178432_j6717328851141_2_alg».proof.Proof.Gen.KernelIdeal.Launch
import proofs.«178432_j6717328851141_2_alg».proof.Proof.Gen.KernelIdeal.Points
import proofs.«178432_j6717328851141_2_alg».proof.Proof.Gen.KernelIdeal.Frame
import proofs.«178432_j6717328851141_2_alg».proof.Proof.Gen.ReferenceIdeal
import proofs.«178432_j6717328851141_2_alg».proof.Proof.Gen.ReferenceIdeal.Run
import proofs.«178432_j6717328851141_2_alg».proof.Proof.Gen.ReferenceIdeal.Read
import proofs.«178432_j6717328851141_2_alg».proof.Proof.Gen.Pre_finite_inputs
import proofs.«178432_j6717328851141_2_alg».proof.Proof.KernelSpec
import proofs.«178432_j6717328851141_2_alg».proof.Proof.RefValue
import proofs.«178432_j6717328851141_2_alg».proof.Proof.LossBridge
import proofs.«178432_j6717328851141_2_alg».proof.Proof.FiniteInputs
import Idealize.ShloMosaic.Adequacy
import Idealize.ShloMosaic.Init

set_option maxRecDepth 16384

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the kernel's loss and means: the means entry by entry by regrouping the sums, the loss
    by the expansion of the squared distances over real entries. -/
theorem algebraic : Cert.algebraic_KernelIdeal_ReferenceIdeal := by
  intro m ρ m' ρ' hpre hagree
  refine ⟨fun c => Cert.KernelIdeal.KernelRun.lossResult m c, fun c => Cert.KernelIdeal.KernelRun.meansResult m c,
    Cert.KernelIdeal.KernelRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · -- the loss
    obtain ⟨hX, hA, hS, hPM⟩ := Cert.FiniteInputs.real_of_pre m hpre c
    rw [Cert.ReferenceIdeal.Read.val_main_v34_eq, (hagree c).1, (hagree c).2.1, (hagree c).2.2.1, (hagree c).2.2.2]
    funext i
    obtain rfl : i = ix0 := eq_ix0 i
    rw [Cert.RefValue.ref_loss]
    refine Eq.trans ?_ (Cert.KernelIdeal.KernelSpec.loss_eq m c).symm
    exact congrArg (fun s => Ideal.div s Cert.Spec.countW) (Cert.Bridge.loss_sums_eq _ _ _ _ hA hS hX hPM)
  · -- the means
    refine (Cert.ReferenceIdeal.Read.val_main_v15_eq (F := Ideal) _ _ _).trans ?_
    rw [(hagree c).1, (hagree c).2.1, (hagree c).2.2.2]
    funext i
    obtain ⟨k, d, rfl⟩ : ∃ (k : Fin 64) (d : Fin 256), i = ix2 k d := ⟨i 0, i 1, eq_ix2 i⟩
    rw [Cert.RefValue.ref_means]
    exact (Cert.KernelIdeal.KernelSpec.means_eq m c k d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
